-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S1000x128 : Shape := ⟨2, ![1000, 128]⟩
abbrev S1000 : Shape := ⟨1, ![1000]⟩
abbrev S1000x1 : Shape := ⟨2, ![1000, 1]⟩

abbrev nBuf : Space → Nat
  | .hbm => 90
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x50000, .i32⟩
  | .hbm, ⟨11, _⟩ => ⟨S1x50000, .i32⟩
  | .hbm, ⟨12, _⟩ => ⟨S2x50000, .i32⟩
  | .hbm, ⟨13, _⟩ => ⟨S2x850000, .i32⟩
  | .hbm, ⟨14, _⟩ => ⟨S1x850000, .i32⟩
  | .hbm, ⟨15, _⟩ => ⟨S850000, .i32⟩
  | .hbm, ⟨16, _⟩ => ⟨S1x850000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .f32⟩
  | .hbm, ⟨38, _⟩ => ⟨S_, .f32⟩
  | .hbm, ⟨39, _⟩ => ⟨S50000x128, .f32⟩
  | .hbm, ⟨40, _⟩ => ⟨S850000x1, .i32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S_, .f32⟩
  | .hbm, ⟨54, _⟩ => ⟨S50000x128, .f32⟩
  | .hbm, ⟨55, _⟩ => ⟨S850000x1, .i32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x128, .f32⟩
  | .hbm, ⟨68, _⟩ => ⟨S_, .f32⟩
  | .hbm, ⟨69, _⟩ => ⟨S50000x128, .f32⟩
  | .hbm, ⟨70, _⟩ => ⟨S850000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S_, .f32⟩
  | .hbm, ⟨75, _⟩ => ⟨S1000x128, .f32⟩
  | .hbm, ⟨76, _⟩ => ⟨S50000x1, .i32⟩
  | .hbm, ⟨77, _⟩ => ⟨S1000x128, .f32⟩
  | .hbm, ⟨78, _⟩ => ⟨S_, .f32⟩
  | .hbm, ⟨79, _⟩ => ⟨S50000, .f32⟩
  | .hbm, ⟨80, _⟩ => ⟨S_, .f32⟩
  | .hbm, ⟨81, _⟩ => ⟨S1000, .f32⟩
  | .hbm, ⟨82, _⟩ => ⟨S50000x1, .i32⟩
  | .hbm, ⟨83, _⟩ => ⟨S1000, .f32⟩
  | .hbm, ⟨84, _⟩ => ⟨S_, .f32⟩
  | .hbm, ⟨85, _⟩ => ⟨S1000, .f32⟩
  | .hbm, ⟨86, _⟩ => ⟨S1000, .f32⟩
  | .hbm, ⟨87, _⟩ => ⟨S1000x1, .f32⟩
  | .hbm, ⟨88, _⟩ => ⟨S1000x128, .f32⟩
  | .hbm, ⟨89, _⟩ => ⟨S1000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1000x128 : S_.BroadcastsInDim S1000x128 (![] : Fin 0 → Fin S1000x128.rank)
  bcast_S50000_S50000x1_0 : S50000.BroadcastsInDim S50000x1 (![0] : Fin 1 → Fin S50000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S1000x128_S50000x1_S50000x128_1_0_0_1_wf : ScatterDims.WF S1000x128 S50000x1 S50000x128 [1] [0] [0] 1
  scatter_S1000_S50000x1_S50000_n_0_0_1_wf : ScatterDims.WF S1000 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1000x128 : Shape := ⟨2, ![1000, 128]⟩
abbrev S50000x1 : Shape := ⟨2, ![50000, 1]⟩
abbrev S1000 : Shape := ⟨1, ![1000]⟩
abbrev S1000x1 : Shape := ⟨2, ![1000, 1]⟩

abbrev nBuf : Space → Nat
  | .hbm => 187
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S50000, .i32⟩
  | 10 => ⟨S1x50000, .i32⟩
  | 11 => ⟨S1x50000, .i32⟩
  | 12 => ⟨S2x50000, .i32⟩
  | 13 => ⟨S2x850000, .i32⟩
  | 14 => ⟨S1x850000, .i32⟩
  | 15 => ⟨S850000, .i32⟩
  | 16 => ⟨S1x850000, .i32⟩
  | 17 => ⟨S850000, .i32⟩
  | 18 => ⟨S50000x128, .f32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S850000x1, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S_, .f32⟩
  | 71 => ⟨S850000, .f32⟩
  | 72 => ⟨S_, .f32⟩
  | 73 => ⟨S50000, .f32⟩
  | 74 => ⟨S850000x1, .i32⟩
  | 75 => ⟨S50000, .f32⟩
  | 76 => ⟨S_, .f32⟩
  | 77 => ⟨S50000, .f32⟩
  | 78 => ⟨S50000, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S850000, .f32⟩
  | 98 => ⟨S850000x1, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x128, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S_, .f32⟩
  | 122 => ⟨S850000, .f32⟩
  | 123 => ⟨S_, .f32⟩
  | 124 => ⟨S50000, .f32⟩
  | 125 => ⟨S850000x1, .i32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000, .f32⟩
  | 20 => ⟨S850000, .f32⟩
  | 21 => ⟨S850000x1, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000x128, .f32⟩
  | 31 => ⟨S850000x128, .f32⟩
  | 32 => ⟨S850000x128, .f32⟩
  | 33 => ⟨S_, .f32⟩
  | 34 => ⟨S50000x128, .f32⟩
  | 35 => ⟨S850000x1, .i32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S_, .f32⟩
  | 44 => ⟨S1000x128, .f32⟩
  | 45 => ⟨S50000x1, .i32⟩
  | 46 => ⟨S1000x128, .f32⟩
  | 47 => ⟨S_, .f32⟩
  | 48 => ⟨S50000, .f32⟩
  | 49 => ⟨S_, .f32⟩
  | 50 => ⟨S1000, .f32⟩
  | 51 => ⟨S50000x1, .i32⟩
  | 52 => ⟨S1000, .f32⟩
  | 53 => ⟨S_, .f32⟩
  | 54 => ⟨S1000, .f32⟩
  | 55 => ⟨S1000, .f32⟩
  | 56 => ⟨S1000x1, .f32⟩
  | 57 => ⟨S1000x128, .f32⟩
  | 58 => ⟨S1000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call0_cst : Ref sig .tc := ⟨.hbm, 66, rfl⟩
abbrev main_call0_v0 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call1_cst : Ref sig .tc := ⟨.hbm, 117, rfl⟩
abbrev main_call1_v0 : Ref sig .tc := ⟨.hbm, 118, rfl⟩
abbrev main_v86 : Ref sig .tc := ⟨.hbm, 119, rfl⟩
abbrev main_v87 : Ref sig .tc := ⟨.hbm, 120, rfl⟩
abbrev main_cst_18 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_20 : Ref sig .tc := ⟨.hbm, 127, rfl⟩
abbrev main_v92 : Ref sig .tc := ⟨.hbm, 128, rfl⟩
abbrev main_v93 : Ref sig .tc := ⟨.hbm, 129, rfl⟩
abbrev main_c_21 : Ref sig .tc := ⟨.hbm, 130, rfl⟩
abbrev main_v94 : Ref sig .tc := ⟨.hbm, 131, rfl⟩
abbrev main_v95 : Ref sig .tc := ⟨.hbm, 132, rfl⟩
abbrev main_c_22 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_23 : Ref sig .tc := ⟨.hbm, 139, rfl⟩
abbrev main_v101 : Ref sig .tc := ⟨.hbm, 140, rfl⟩
abbrev main_v102 : Ref sig .tc := ⟨.hbm, 141, rfl⟩
abbrev main_c_24 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_25 : Ref sig .tc := ⟨.hbm, 150, rfl⟩
abbrev main_v110 : Ref sig .tc := ⟨.hbm, 151, rfl⟩
abbrev main_v111 : Ref sig .tc := ⟨.hbm, 152, rfl⟩
abbrev main_c_26 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_27 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_call2_cst : Ref sig .tc := ⟨.hbm, 168, rfl⟩
abbrev main_call2_v0 : Ref sig .tc := ⟨.hbm, 169, rfl⟩
abbrev main_v125 : Ref sig .tc := ⟨.hbm, 170, rfl⟩
abbrev main_cst_28 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_29 : Ref sig .tc := ⟨.hbm, 175, rfl⟩
abbrev main_v129 : Ref sig .tc := ⟨.hbm, 176, rfl⟩
abbrev main_cst_30 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_31 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩

abbrev nD : Nat := 1
abbrev τ : Topo := Topo.v7x

variable {F : FTy → Type} [FloatOps F]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1000x128 : S_.BroadcastsInDim S1000x128 (![] : Fin 0 → Fin S1000x128.rank)
  bcast_S50000_S50000x1_0 : S50000.BroadcastsInDim S50000x1 (![0] : Fin 1 → Fin S50000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S1000x128_S50000x1_S50000x128_1_0_0_1_wf : ScatterDims.WF S1000x128 S50000x1 S50000x128 [1] [0] [0] 1
  scatter_S1000_S50000x1_S50000_n_0_0_1_wf : ScatterDims.WF S1000 S50000x1 S50000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf

class Facts : Prop extends Facts₀ where

variable [Facts]
-- ==== Proof.LibGraphOps.lean ====
/-
  Rows of a node table gathered along an edge list, and rows scattered back with addition, at the ideal values.

  A table x : [N, J] gathered at a column of E start indices has at (e, j) the entry x(r e, j), where r e is the start
  index of edge e read as a signed integer and clamped into [0, N - 1]; a vector x : [N] gathered the same way has at e
  the entry x(r e).  A scatter-add of updates u : [E, J] into a table [N, J] at a column of E indices adds u(e, j) into
  row d of column j exactly for the edges e whose index, read signed and NOT clamped, is d; an index outside [0, N)
  adds nothing.  So an edge that lands on row d has a non-negative index whose clamp is d itself.

  The law proved here (scatterAdd_rescale): if every update of one scatter is the matching update of another times a
  factor that depends only on the row the edge lands on, and that factor is a non-negative real number, then the first
  scatter's sum is the second's times the factor.  On the extended reals (a + b) * c = a * c + b * c holds for any a, b
  once 0 ≤ c < ⊤, which is what lets the factor leave the sum whatever the summands are.
  Also here: the host's reduction with a maximum body along the columns of a matrix, at a row, as a fold of max over the
  columns (hostRowMax_apply), at any extents.
  Imports only the library.
-/
import Idealize.ShloMosaic.PureOps.Ideal.Laws
import Idealize.ShloMosaic.Lib.ValueIdx
import Idealize.ShloMosaic.Lib.Pipeline.Value

noncomputable section

open scoped BigOperators

namespace Cert.LibGraph

open Idealize.ShloMosaic Idealize.ShloMosaic.ValueIdx

/-! ## A start index read signed and clamped into the table -/

/-- A start index word read as a signed integer and clamped into [0, N - 1]. -/
def clampIdx (N : Nat) (hN : 0 < N) {w : Nat} (v : BitVec w) : Fin N :=
  ⟨min v.toInt.toNat (N - 1), by have := Nat.min_le_right v.toInt.toNat (N - 1); omega⟩

/-- A non-negative index below N is its own clamp. -/
theorem clampIdx_of_landed {N : Nat} (hN : 0 < N) {w : Nat} (v : BitVec w) (d : Fin N) (h : v.toInt = (d.val : Int)) :
    clampIdx N hN v = d := by
  apply Fin.ext
  show min v.toInt.toNat (N - 1) = d.val
  have := d.isLt
  have h' : v.toInt.toNat = d.val := by omega
  rw [h']; omega

/-! ## Gathers of rows -/

/-- The dimension numbers of x[idx] for a table [N, J] and a column [E, 1] of start indices. -/
abbrev rowsGather (N J E : Nat) (wf : GatherDims.WF ⟨2, ![N, J]⟩ ⟨2, ![E, 1]⟩ ⟨2, ![E, J]⟩ [1] [0] [] [0] [] 1 ![1, J]) :
    GatherDims ⟨2, ![N, J]⟩ ⟨2, ![E, 1]⟩ ⟨2, ![E, J]⟩ where
  offsetDims := [1]
  collapsedSliceDims := [0]
  operandBatchingDims := []
  startIndicesBatchingDims := []
  startIndexMap := [0]
  indexVectorDim := 1
  sliceSizes := ![1, J]
  wf := wf

/-- The gathered table at (e, j) is the table at (clamped start index of e, j). -/
theorem gatherRows_apply {α : Type} {N J E w : Nat} (hN : 0 < N)
    (wf : GatherDims.WF ⟨2, ![N, J]⟩ ⟨2, ![E, 1]⟩ ⟨2, ![E, J]⟩ [1] [0] [] [0] [] 1 ![1, J])
    (x : (⟨2, ![N, J]⟩ : Shape).Idx → α) (idx : IVec ⟨2, ![E, 1]⟩ w) (e : Fin E) (j : Fin J) :
    Host.gather (rowsGather N J E wf) x idx (ix2 e j) = x (ix2 (clampIdx N hN (idx (ix2 e (0 : Fin 1)))) j) := by
  -- the row coordinate: the clamped start index, no batch and no offset part
  have h0 : (rowsGather N J E wf).start (ix2 e j) idx (0 : Fin 2) + (rowsGather N J E wf).batchCoord (ix2 e j) (0 : Fin 2)
      + (rowsGather N J E wf).offCoord (ix2 e j) (0 : Fin 2) = (clampIdx N hN (idx (ix2 e (0 : Fin 1)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N J E wf).startIndexMap from List.mem_singleton.mpr rfl)]
    have hsi : (rowsGather N J E wf).siIdx (ix2 e j) ⟨List.idxOf (0 : Fin 2) (rowsGather N J E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start, no batch part, the result's own column
  have h1 : (rowsGather N J E wf).start (ix2 e j) idx (1 : Fin 2) + (rowsGather N J E wf).batchCoord (ix2 e j) (1 : Fin 2)
      + (rowsGather N J E wf).offCoord (ix2 e j) (1 : Fin 2) = j.val := by
    have hs : (rowsGather N J E wf).start (ix2 e j) idx (1 : Fin 2) = 0 := by
      unfold GatherDims.start
      exact dif_neg (show ¬ (1 : Fin 2) ∈ ([0] : List (Fin 2)) by decide)
    have hk : (1 : Fin 2) ∈ (rowsGather N J E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  refine congrArg x (funext fun a => Fin.ext ?_)
  match a with
  | ⟨0, _⟩ => exact h0
  | ⟨1, _⟩ => exact h1

/-- The dimension numbers of x[idx] for a vector [N] and a column [E, 1] of start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the clamped start index of e. -/
theorem gatherVec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e (0 : Fin 1))))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-adds of rows -/

/-- The dimension numbers of .at[idx].add(u) for a table [N, J], a column [E, 1] of indices and updates [E, J]. -/
abbrev rowsScatter (N J E : Nat) (wf : ScatterDims.WF ⟨2, ![N, J]⟩ ⟨2, ![E, 1]⟩ ⟨2, ![E, J]⟩ [1] [0] [0] 1) :
    ScatterDims ⟨2, ![N, J]⟩ ⟨2, ![E, 1]⟩ ⟨2, ![E, J]⟩ where
  updateWindowDims := [1]
  insertedWindowDims := [0]
  scatterDimsToOperandDims := [0]
  indexVectorDim := 1
  wf := wf

/-- An update that lands on row d comes from an edge whose index, read signed, is d: it is not negative and its
    value is d. -/
theorem scatterRows_landed {N J E w : Nat} (wf : ScatterDims.WF ⟨2, ![N, J]⟩ ⟨2, ![E, 1]⟩ ⟨2, ![E, J]⟩ [1] [0] [0] 1)
    (idx : IVec ⟨2, ![E, 1]⟩ w) (u : (⟨2, ![E, J]⟩ : Shape).Idx) (i : (⟨2, ![N, J]⟩ : Shape).Idx)
    (h : (rowsScatter N J E wf).resultIdx? u idx = some i) :
    (idx (ix2 (u 0) (0 : Fin 1))).toInt = ((i 0).val : Int) := by
  unfold ScatterDims.resultIdx? at h
  split at h
  · rename_i hall
    have hi := congrFun (Option.some.inj h) 0
    have hv : ((rowsScatter N J E wf).start u idx 0 + (rowsScatter N J E wf).window u 0).toNat = (i 0).val :=
      congrArg Fin.val hi
    have hw : (rowsScatter N J E wf).window u (0 : Fin 2) = 0 := by
      unfold ScatterDims.window
      exact dif_neg (show ¬ (0 : Fin 2) ∈ (rowsScatter N J E wf).sKept by
        simp [ScatterDims.sKept, Shape.kept, List.mem_filter, List.mem_finRange])
    have hst : (rowsScatter N J E wf).start u idx (0 : Fin 2) = (idx (ix2 (u 0) (0 : Fin 1))).toInt := by
      unfold ScatterDims.start
      rw [dif_pos (show (0 : Fin 2) ∈ (rowsScatter N J E wf).scatterDimsToOperandDims from List.mem_singleton.mpr rfl)]
      have hsi : (rowsScatter N J E wf).siIdx u ⟨List.idxOf (0 : Fin 2) (rowsScatter N J E wf).scatterDimsToOperandDims,
          List.idxOf_lt_length_iff.2 (List.mem_singleton.mpr rfl)⟩ = ix2 (u 0) (0 : Fin 1) := by
        funext b; refine Fin.ext ?_
        match b with
        | ⟨0, _⟩ => rfl
        | ⟨1, _⟩ => rfl
      rw [hsi]
      rfl
    have hnn : 0 ≤ (rowsScatter N J E wf).start u idx 0 + (((rowsScatter N J E wf).window u 0 : Nat) : Int) := (hall 0).1
    rw [hw, hst] at hv hnn
    simp only [Nat.cast_zero, add_zero] at hv hnn
    omega
  · exact absurd h (by simp)

/-! ## A factor that leaves a sum -/

/-- A non-negative real factor leaves a finite sum of extended reals. -/
theorem sum_mul_of_nonneg_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE LAW.  Two scatter-adds into zero tables at the same indices.  If at every update that lands on a row the
    second scatter's update is the first's times a factor c(row), and c(row) is a non-negative real, then at every
    entry the first scatter's sum times c(row) is the second's sum. -/
theorem scatterAdd_rescale {N J E w : Nat} (wf : ScatterDims.WF ⟨2, ![N, J]⟩ ⟨2, ![E, 1]⟩ ⟨2, ![E, J]⟩ [1] [0] [0] 1)
    (z : FVec Ideal ⟨2, ![N, J]⟩ .f32) (hz : ∀ i, z i = 0) (idx : IVec ⟨2, ![E, 1]⟩ w)
    (u₁ u₂ : FVec Ideal ⟨2, ![E, J]⟩ .f32) (c : Fin N → EReal) (h0 : ∀ n, 0 ≤ c n) (ht : ∀ n, c n ≠ ⊤)
    (hu : ∀ (u : (⟨2, ![E, J]⟩ : Shape).Idx) (i : (⟨2, ![N, J]⟩ : Shape).Idx),
      (rowsScatter N J E wf).resultIdx? u idx = some i → u₂ u = u₁ u * c (i 0))
    (i : (⟨2, ![N, J]⟩ : Shape).Idx) :
    Host.scatterAdd (F := Ideal) (rowsScatter N J E wf) z idx u₁ i * c (i 0)
      = Host.scatterAdd (F := Ideal) (rowsScatter N J E wf) z idx u₂ i := by
  simp only [Host.scatterAdd, Ideal.hostScatterAdd_def, Ideal.hostScatterAdd]
  rw [hz i, zero_add, zero_add]
  refine (sum_mul_of_nonneg_ne_top _ _ (c (i 0)) (h0 _) (ht _)).trans ?_
  refine Finset.sum_congr rfl fun u hu' => ?_
  exact (hu u i (Finset.mem_filter.mp hu').2).symm

/-! ## The inverse square root of a degree, guarded -/

/-- where(x > 0, rsqrt x, 0) on the extended reals is a non-negative real number, whatever x is: the inverse root of a
    positive real, 0 at +∞ (rsqrt's value there), and 0 where the guard fails. -/
theorem guardedRsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot => simp [Scalar.select, Ideal.cmp]
  | top =>
    have hr : Ideal.rsqrt (⊤ : EReal) = 0 := rfl
    simp [Scalar.select, Ideal.cmp, hr]
  | coe r =>
    by_cases h : 0 < r
    · have h1 : ¬ r < 0 := not_lt.mpr h.le
      have h2 : r ≠ 0 := h.ne'
      have hc : Ideal.cmp .ogt (r : EReal) 0 = 1#1 := by simp [Ideal.cmp, h]
      have hr : Ideal.rsqrt (r : EReal) = (((Real.sqrt r)⁻¹ : ℝ) : EReal) := by
        show (if r < 0 then (⊥ : EReal) else if r = 0 then ⊤ else (((Real.sqrt r)⁻¹ : ℝ) : EReal)) = _
        rw [if_neg h1, if_neg h2]
      rw [hc, show Scalar.select 1#1 (Ideal.rsqrt (r : EReal)) (0 : EReal) = Ideal.rsqrt (r : EReal) from if_pos rfl, hr]
      exact ⟨by exact_mod_cast inv_nonneg.mpr (Real.sqrt_nonneg r), EReal.coe_ne_top _⟩
    · have hc : Ideal.cmp .ogt (r : EReal) 0 = 0#1 := by simp [Ideal.cmp, h]
      rw [hc, show Scalar.select 0#1 (Ideal.rsqrt (r : EReal)) (0 : EReal) = 0 from if_neg (by decide)]
      exact ⟨le_refl _, EReal.zero_ne_top⟩

/-! ## A negative index wrapped, where the index is not negative -/

/-- where(v < 0, a, v) is v for an index word v that is not negative as a signed integer, whatever a is (in the
    programs a is v + n, the index wrapped from the end). -/
theorem wrapIdx_of_nonneg {w : Nat} (v a z : BitVec w) (hz : z = 0#w) (h : 0 ≤ v.toInt) :
    Scalar.select (IntOp.cmpi .slt v z) a v = v := by
  subst hz
  have : IntOp.cmpi .slt v 0#w = 0#1 := by
    simp only [IntOp.cmpi, BitVec.slt, BitVec.toInt_zero]
    simp [not_lt.mpr h]
  rw [this]
  exact if_neg (by decide)

/-! ## A row's maximum on the host -/

/-- The host's reduction with a maximum body along the columns of an [R, C] matrix, at row p: the fold of max, from the
    initial value, over the columns of that row's entries. -/
theorem hostRowMax_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x _ h' h hu]
  exact congrArg (fun f => Finset.fold max (init (Shape.Idx.first hu)) f (Finset.univ : Finset (Fin C)))
    (funext fun k => congrArg x (funext fun d => Fin.ext (by
      match d with
      | ⟨0, _⟩ => rfl
      | ⟨1, _⟩ => rfl)))

end Cert.LibGraph

end
-- ==== Proof.Spec.lean ====
/-
  A three-layer graph convolution with symmetric degree normalisation, followed by a mean over each graph of a batch,
  written index by index on the extended reals — once with the normalisation applied per edge and once per node.

  There are 50000 nodes with 128 channels, and an edge list of 850000 (target word, source word) pairs.  A word names a
  node after being wrapped from the end where it is negative and clamped into the table (node); an edge ARRIVES at node
  n when its target word, read signed and neither wrapped nor clamped, is n — and then the node its target word names is n.
  The degree of n counts the arriving edges (deg), and its weight is d(n) = deg(n)^(-1/2) (dis).

    per edge :  layerE h W b (n, q) = max ( (0 + Σ_e [e arrives at n] (d(t e) · d(s e)) · (hW)(s e, q))  +  b q ) 0
    per node :  scaled g (n, q) = g(n, q) · d(n),
                actN g' b (n, q) = max ( d(n) · (0 + Σ_e [e arrives at n] g'(s e, q))  +  b q ) 0,

  with (hW)(n, q) = Σ_k h(n, k) · W(k, q)  (proj), s e and t e the nodes the source and target words of e name.
  The two agree, actN (scaled (proj h W)) b = layerE h W b  (actN_scaled), because d(n) is a non-negative REAL number
  (a real power of a count), and such a factor distributes over a finite sum of extended reals whatever the summands are;
  an arriving edge has t e = n.  Nothing is assumed finite about the features.
  The last stage (pool) divides, for each graph g and channel q, the sum of the rows of the nodes whose batch word is g
  by the larger of their count and one.
-/
import Idealize.ShloMosaic.PureOps.Ideal.Laws
import Idealize.ShloMosaic.Lib.ValueIdx
import proofs.«113473_j73512660238714_2_alg».proof.Proof.LibGraphOps

noncomputable section

open scoped BigOperators

namespace Cert.GcnSpec

open Idealize.ShloMosaic Idealize.ShloMosaic.ValueIdx

/-- Node features [50000, 128], a weight matrix [128, 128], a bias [128], a bias row [1, 128], a node column [50000, 1],
    a node vector [50000], an edge vector [850000], the pooled result [1000, 128]. -/
abbrev SND : Shape := ⟨2, ![50000, 128]⟩
abbrev SDD : Shape := ⟨2, ![128, 128]⟩
abbrev SD : Shape := ⟨1, ![128]⟩
abbrev S1D : Shape := ⟨2, ![1, 128]⟩
abbrev SN1 : Shape := ⟨2, ![50000, 1]⟩
abbrev SN : Shape := ⟨1, ![50000]⟩
abbrev SM : Shape := ⟨1, ![850000]⟩
abbrev SBD : Shape := ⟨2, ![1000, 128]⟩

/-- The words 1.0 and -0.5 as extended reals. -/
def one : EReal := Ideal.ofBits .f32 0x3F800000#32
def mhalf : EReal := Ideal.ofBits .f32 0xBF000000#32

/-- The node an index word names: wrapped from the end where negative, then clamped into the table. -/
def node (w : BitVec 32) : Fin 50000 :=
  LibGraph.clampIdx 50000 (by decide) (Scalar.select (IntOp.cmpi .slt w 0#32) (IntOp.addi w 50000#32) w)

/-- The number of edges arriving at n, each counted 1.0 from 0. -/
def deg (row : IVec SM 32) (n : Fin 50000) : EReal :=
  0 + ∑ e : Fin 850000, if (row (ix1 e)).toInt = (n.val : Int) then one else 0

/-- The node weight deg^(-1/2). -/
def dis (row : IVec SM 32) (n : Fin 50000) : EReal := Ideal.pow (deg row n) mhalf

/-- Features times a weight matrix. -/
def proj (h : Fin 50000 → Fin 128 → EReal) (W : FVec Ideal SDD .f32) (n : Fin 50000) (q : Fin 128) : EReal :=
  ∑ k : Fin 128, h n k * W (ix2 k q)

/-- The aggregate normalised per edge. -/
def aggE (row col : IVec SM 32) (g : Fin 50000 → Fin 128 → EReal) (n : Fin 50000) (q : Fin 128) : EReal :=
  0 + ∑ e : Fin 850000, if (row (ix1 e)).toInt = (n.val : Int)
    then (dis row (node (row (ix1 e))) * dis row (node (col (ix1 e)))) * g (node (col (ix1 e))) q else 0

/-- One layer, normalised per edge: project, aggregate, add the bias, clip at zero. -/
def layerE (row col : IVec SM 32) (h : Fin 50000 → Fin 128 → EReal) (W : FVec Ideal SDD .f32) (b : FVec Ideal SD .f32)
    (n : Fin 50000) (q : Fin 128) : EReal :=
  max (aggE row col (proj h W) n q + b (ix1 q)) 0

/-- The plain aggregate of already weighted rows. -/
def aggN (row col : IVec SM 32) (g : Fin 50000 → Fin 128 → EReal) (n : Fin 50000) (q : Fin 128) : EReal :=
  0 + ∑ e : Fin 850000, if (row (ix1 e)).toInt = (n.val : Int) then g (node (col (ix1 e))) q else 0

/-- Rows weighted by their node's weight. -/
def scaled (row : IVec SM 32) (g : Fin 50000 → Fin 128 → EReal) (n : Fin 50000) (q : Fin 128) : EReal :=
  g n q * dis row n

/-- The per-node finish of a layer: weight the aggregate, add the bias, clip at zero. -/
def actN (row col : IVec SM 32) (g : Fin 50000 → Fin 128 → EReal) (b : FVec Ideal SD .f32) (n : Fin 50000) (q : Fin 128) :
    EReal :=
  max (dis row n * aggN row col g n q + b (ix1 q)) 0

/-- The mean over each graph: the sum of its nodes' rows over the larger of their count and one. -/
def pool (batch : IVec SN 32) (h : Fin 50000 → Fin 128 → EReal) (g : Fin 1000) (q : Fin 128) : EReal :=
  Ideal.div (0 + ∑ n : Fin 50000, if (batch (ix1 n)).toInt = (g.val : Int) then h n q else 0)
    (max (0 + ∑ n : Fin 50000, if (batch (ix1 n)).toInt = (g.val : Int) then one else 0) one)

/-- The pooled result as an array. -/
def poolArr (batch : IVec SN 32) (h : Fin 50000 → Fin 128 → EReal) : FVec Ideal SBD .f32 :=
  fun i => pool batch h (i 0) (i 1)

theorem poolArr_apply (batch : IVec SN 32) (h : Fin 50000 → Fin 128 → EReal) (g : Fin 1000) (q : Fin 128) :
    poolArr batch h (ix2 g q) = pool batch h g q := rfl

/-- An array of node features read by coordinates. -/
def feat (x : FVec Ideal SND .f32) (n : Fin 50000) (k : Fin 128) : EReal := x (ix2 n k)

/-- The three layers, normalised per edge. -/
def refH3 (row col : IVec SM 32) (x : FVec Ideal SND .f32) (W0 : FVec Ideal SDD .f32) (b0 : FVec Ideal SD .f32)
    (W1 : FVec Ideal SDD .f32) (b1 : FVec Ideal SD .f32) (W2 : FVec Ideal SDD .f32) (b2 : FVec Ideal SD .f32) :
    Fin 50000 → Fin 128 → EReal :=
  layerE row col (layerE row col (layerE row col (feat x) W0 b0) W1 b1) W2 b2

/-- The three layers, normalised per node. -/
def nodeH3 (row col : IVec SM 32) (x : FVec Ideal SND .f32) (W0 : FVec Ideal SDD .f32) (b0 : FVec Ideal SD .f32)
    (W1 : FVec Ideal SDD .f32) (b1 : FVec Ideal SD .f32) (W2 : FVec Ideal SDD .f32) (b2 : FVec Ideal SD .f32) :
    Fin 50000 → Fin 128 → EReal :=
  actN row col (scaled row (proj (actN row col (scaled row (proj (actN row col (scaled row (proj (feat x) W0)) b0) W1)) b1) W2)) b2

/-! ## What each kernel leaves in its output array, as a function of the arrays it reads -/

/-- (x W)(n, q) · d(n, 0). -/
def G0 (x : FVec Ideal SND .f32) (W : FVec Ideal SDD .f32) (d : FVec Ideal SN1 .f32) : FVec Ideal SND .f32 :=
  fun i => (∑ k : Fin 128, x (ix2 (i 0) k) * W (ix2 k (i 1))) * d (ix2 (i 0) 0)

theorem G0_apply (x : FVec Ideal SND .f32) (W : FVec Ideal SDD .f32) (d : FVec Ideal SN1 .f32) (n : Fin 50000) (q : Fin 128) :
    G0 x W d (ix2 n q) = (∑ k : Fin 128, x (ix2 n k) * W (ix2 k q)) * d (ix2 n 0) := rfl

/-- (max (d · a + b) 0  W)(n, q) · d(n, 0). -/
def G1 (a : FVec Ideal SND .f32) (d : FVec Ideal SN1 .f32) (b : FVec Ideal S1D .f32) (W : FVec Ideal SDD .f32) :
    FVec Ideal SND .f32 :=
  fun i => (∑ k : Fin 128, max (d (ix2 (i 0) 0) * a (ix2 (i 0) k) + b (ix2 0 k)) 0 * W (ix2 k (i 1))) * d (ix2 (i 0) 0)

theorem G1_apply (a : FVec Ideal SND .f32) (d : FVec Ideal SN1 .f32) (b : FVec Ideal S1D .f32) (W : FVec Ideal SDD .f32)
    (n : Fin 50000) (q : Fin 128) :
    G1 a d b W (ix2 n q)
      = (∑ k : Fin 128, max (d (ix2 n 0) * a (ix2 n k) + b (ix2 0 k)) 0 * W (ix2 k q)) * d (ix2 n 0) := rfl

/-- max (d(n, 0) · a(n, q) + b(0, q)) 0. -/
def G3 (a : FVec Ideal SND .f32) (d : FVec Ideal SN1 .f32) (b : FVec Ideal S1D .f32) : FVec Ideal SND .f32 :=
  fun i => max (d (ix2 (i 0) 0) * a (ix2 (i 0) (i 1)) + b (ix2 0 (i 1))) 0

theorem G3_apply (a : FVec Ideal SND .f32) (d : FVec Ideal SN1 .f32) (b : FVec Ideal S1D .f32) (n : Fin 50000) (q : Fin 128) :
    G3 a d b (ix2 n q) = max (d (ix2 n 0) * a (ix2 n q) + b (ix2 0 q)) 0 := rfl

end Cert.GcnSpec

end
-- ==== Proof.LibSegSum.lean ====
/-
  Scatter-adds along a column of row indices, at the ideal values, read at one entry — for any extents.

  A table x : [N, C] receives updates u : [E, C] at a column [E, 1] of row indices (what a segment sum of E rows into N
  segments lowers to): update element (e, c) is added at (r e, c), where r e is edge e's index read as a signed integer,
  and is dropped when r e is outside [0, N).  So the result at (n, q) is

      x(n, q) + Σ_{e < E} [r e = n] · u(e, q)                                   (scatterRows_apply),

  the bracket meaning: the summand is u(e, q) where the equation holds and 0 elsewhere.  The vector form — x : [N],
  u : [E], the same column of indices — has at n the value x(n) + Σ_{e < E} [r e = n] · u(e)   (scatterVec_apply).

  Both follow from the exact landing condition of one update element (rows_lands_iff, vec_lands_iff): it lands on an
  entry iff its row index, read signed, IS that entry's row and (for rows) its column is that entry's column.  The sums
  are finite sums on the extended reals, which form a commutative monoid under addition, so nothing about finiteness of
  the summands is needed.
  Imports only the library.
-/
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## Rows: a table [N, C], indices [E, 1], updates [E, C] -/

/-- The dimension numbers of a row scatter: the updates' axis 1 is the window axis and goes to the table's axis 1, the
    table's axis 0 is indexed by the one component of the index vector. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (u : (⟨2, ![E, C]⟩ : Shape).Idx)

/-- On the row axis the window starts at the edge's index, read signed. -/
theorem rows_start_row :
    (rowsScatter N C E wf).start u idx (0 : Fin 2) = (idx (ix2 (u 0) (0 : Fin 1))).toInt := by
  unfold ScatterDims.start
  rw [dif_pos (show (0 : Fin 2) ∈ (rowsScatter N C E wf).scatterDimsToOperandDims from List.mem_singleton.mpr rfl)]
  refine congrArg (fun k => (idx k).toInt) (funext fun b => Fin.ext ?_)
  match b with
  | ⟨0, _⟩ => rfl
  | ⟨1, _⟩ => rfl

/-- On the column axis the window starts at 0. -/
theorem rows_start_col : (rowsScatter N C E wf).start u idx (1 : Fin 2) = 0 := by
  unfold ScatterDims.start
  exact dif_neg (show ¬ (1 : Fin 2) ∈ ([0] : List (Fin 2)) by decide)

/-- The row axis is inserted: no window coordinate there. -/
theorem rows_window_row : (rowsScatter N C E wf).window u (0 : Fin 2) = 0 := by
  unfold ScatterDims.window
  exact dif_neg (show ¬ (0 : Fin 2) ∈ (rowsScatter N C E wf).sKept by
    simp [ScatterDims.sKept, Shape.kept, List.mem_filter, List.mem_finRange])

/-- On the column axis the window coordinate is the update's own column. -/
theorem rows_window_col : (rowsScatter N C E wf).window u (1 : Fin 2) = (u 1).val := by
  unfold ScatterDims.window
  rw [dif_pos (show (1 : Fin 2) ∈ (rowsScatter N C E wf).sKept by
    simp [ScatterDims.sKept, Shape.kept, List.mem_filter, List.mem_finRange])]
  rfl

/-- An update element lands on the entry i exactly when its edge's index, read signed, is i's row and its column is
    i's column. -/
theorem rows_lands_iff (i : (⟨2, ![N, C]⟩ : Shape).Idx) :
    (rowsScatter N C E wf).resultIdx? u idx = some i
      ↔ (idx (ix2 (u 0) (0 : Fin 1))).toInt = ((i 0).val : Int) ∧ (u 1).val = (i 1).val := by
  have hi0 : (i 0).val < N := idx2_lt0 i
  have hi1 : (i 1).val < C := idx2_lt1 i
  have hu1 : (u 1).val < C := idx2_lt1 u
  unfold ScatterDims.resultIdx?
  split
  · rename_i hall
    have h0 := (hall 0).1
    rw [rows_start_row, rows_window_row] at h0
    constructor
    · intro h
      have e0 : ((rowsScatter N C E wf).start u idx 0 + (rowsScatter N C E wf).window u 0).toNat = (i 0).val :=
        congrArg Fin.val (congrFun (Option.some.inj h) 0)
      have e1 : ((rowsScatter N C E wf).start u idx 1 + (rowsScatter N C E wf).window u 1).toNat = (i 1).val :=
        congrArg Fin.val (congrFun (Option.some.inj h) 1)
      rw [rows_start_row, rows_window_row] at e0
      rw [rows_start_col, rows_window_col] at e1
      constructor <;> omega
    · rintro ⟨hr, hc⟩
      refine congrArg some (funext fun a => Fin.ext ?_)
      match a with
      | ⟨0, _⟩ =>
        show ((rowsScatter N C E wf).start u idx 0 + (rowsScatter N C E wf).window u 0).toNat = (i 0).val
        rw [rows_start_row, rows_window_row]; omega
      | ⟨1, _⟩ =>
        show ((rowsScatter N C E wf).start u idx 1 + (rowsScatter N C E wf).window u 1).toNat = (i 1).val
        rw [rows_start_col, rows_window_col]; omega
  · rename_i hno
    constructor
    · intro h; exact absurd h (by simp)
    · rintro ⟨hr, hc⟩
      refine absurd (fun a => ?_) hno
      match a with
      | ⟨0, _⟩ =>
        show 0 ≤ (rowsScatter N C E wf).start u idx 0 + (rowsScatter N C E wf).window u 0
          ∧ (rowsScatter N C E wf).start u idx 0 + (rowsScatter N C E wf).window u 0 < (N : Int)
        rw [rows_start_row, rows_window_row]; omega
      | ⟨1, _⟩ =>
        show 0 ≤ (rowsScatter N C E wf).start u idx 1 + (rowsScatter N C E wf).window u 1
          ∧ (rowsScatter N C E wf).start u idx 1 + (rowsScatter N C E wf).window u 1 < (C : Int)
        rw [rows_start_col, rows_window_col]; omega

end Rows

/-- A row scatter-add read at (n, q): the table's entry plus the updates (e, q) of the edges e whose index is n. -/
theorem scatterRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (q : Fin C) :
    Host.scatterAdd (F := Ideal) (rowsScatter N C E wf) x idx upd (ix2 n q)
      = x (ix2 n q) + ∑ e : Fin E, if (idx (ix2 e (0 : Fin 1))).toInt = (n.val : Int) then upd (ix2 e q) else 0 := by
  simp only [Host.scatterAdd, Ideal.hostScatterAdd_def, Ideal.hostScatterAdd]
  refine congrArg (x (ix2 n q) + ·) ?_
  rw [Finset.sum_filter, sum_idx2]
  refine Finset.sum_congr rfl fun e _ => ?_
  by_cases hr : (idx (ix2 e (0 : Fin 1))).toInt = (n.val : Int)
  · rw [if_pos hr]
    rw [Finset.sum_eq_single q]
    · exact if_pos ((rows_lands_iff wf idx (ix2 e q) (ix2 n q)).mpr ⟨hr, rfl⟩)
    · intro c _ hc
      exact if_neg fun h => hc (Fin.ext ((rows_lands_iff wf idx (ix2 e c) (ix2 n q)).mp h).2)
    · intro h; exact absurd (Finset.mem_univ q) h
  · rw [if_neg hr]
    exact Finset.sum_eq_zero fun c _ => if_neg fun h => hr ((rows_lands_iff wf idx (ix2 e c) (ix2 n q)).mp h).1

/-! ## A vector [N], indices [E, 1], updates [E] -/

/-- The dimension numbers of a scatter of scalars: no window axis, the vector's one axis indexed by the one component of
    the index vector. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (u : (⟨1, ![E]⟩ : Shape).Idx)

/-- The window starts at the edge's index, read signed. -/
theorem vec_start : (vecScatter N E wf).start u idx (0 : Fin 1) = (idx (ix2 (u 0) (0 : Fin 1))).toInt := by
  unfold ScatterDims.start
  rw [dif_pos (show (0 : Fin 1) ∈ (vecScatter N E wf).scatterDimsToOperandDims from List.mem_singleton.mpr rfl)]
  refine congrArg (fun k => (idx k).toInt) (funext fun b => Fin.ext ?_)
  match b with
  | ⟨0, _⟩ => rfl
  | ⟨1, _⟩ => rfl

/-- The one axis is inserted: no window coordinate. -/
theorem vec_window : (vecScatter N E wf).window u (0 : Fin 1) = 0 := by
  unfold ScatterDims.window
  exact dif_neg (show ¬ (0 : Fin 1) ∈ (vecScatter N E wf).sKept by
    simp [ScatterDims.sKept, Shape.kept, List.mem_filter, List.mem_finRange])

/-- An update lands on the entry i exactly when its edge's index, read signed, is i. -/
theorem vec_lands_iff (i : (⟨1, ![N]⟩ : Shape).Idx) :
    (vecScatter N E wf).resultIdx? u idx = some i ↔ (idx (ix2 (u 0) (0 : Fin 1))).toInt = ((i 0).val : Int) := by
  have hi0 : (i 0).val < N := (i 0).isLt
  unfold ScatterDims.resultIdx?
  split
  · rename_i hall
    have h0 := (hall 0).1
    rw [vec_start, vec_window] at h0
    constructor
    · intro h
      have e0 : ((vecScatter N E wf).start u idx 0 + (vecScatter N E wf).window u 0).toNat = (i 0).val :=
        congrArg Fin.val (congrFun (Option.some.inj h) 0)
      rw [vec_start, vec_window] at e0
      omega
    · intro hr
      refine congrArg some (funext fun a => Fin.ext ?_)
      obtain rfl : a = 0 := Subsingleton.elim _ _
      show ((vecScatter N E wf).start u idx 0 + (vecScatter N E wf).window u 0).toNat = (i 0).val
      rw [vec_start, vec_window]; omega
  · rename_i hno
    constructor
    · intro h; exact absurd h (by simp)
    · intro hr
      refine absurd (fun a => ?_) hno
      obtain rfl : a = 0 := Subsingleton.elim _ _
      show 0 ≤ (vecScatter N E wf).start u idx 0 + (vecScatter N E wf).window u 0
        ∧ (vecScatter N E wf).start u idx 0 + (vecScatter N E wf).window u 0 < (N : Int)
      rw [vec_start, vec_window]; omega

end Vec

/-- A sum over the index set of a one-dimensional array is the sum over its coordinate. -/
theorem sum_idx1 {M : Type*} [AddCommMonoid M] {n : Nat} (f : (⟨1, ![n]⟩ : Shape).Idx → M) :
    ∑ i, f i = ∑ a : Fin n, f (ix1 a) := by
  refine (Equiv.sum_comp (⟨fun a => ix1 a, fun i => i 0, fun _ => rfl, fun i => (eq_ix1 i).symm⟩ :
    Fin n ≃ (⟨1, ![n]⟩ : Shape).Idx) f).symm.trans ?_
  rfl

/-- A scatter-add of scalars read at n: the vector's entry plus the updates of the edges whose index is n. -/
theorem scatterVec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : Int) then upd (ix1 e) else 0 := by
  simp only [Host.scatterAdd, Ideal.hostScatterAdd_def, Ideal.hostScatterAdd]
  refine congrArg (x (ix1 n) + ·) ?_
  rw [Finset.sum_filter, sum_idx1]
  refine Finset.sum_congr rfl fun e _ => ?_
  by_cases hr : (idx (ix2 e (0 : Fin 1))).toInt = (n.val : Int)
  · rw [if_pos hr]; exact if_pos ((vec_lands_iff wf idx (ix1 e) (ix1 n)).mpr hr)
  · rw [if_neg hr]; exact if_neg fun h => hr ((vec_lands_iff wf idx (ix1 e) (ix1 n)).mp h)

end Cert.LibSegSum

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.KStages.lean ====
/-
  The host stages of the kernel program between its four kernels, as whole arrays and read at one entry.

  Between two kernels the program gathers the rows of the weighted features at the (wrapped) source words of the edges
  and scatter-adds them at the target words into a zero table: at (n, q) this is 0 + Σ_e [e arrives at n] hs(s e, q)
  (aggStage_apply).  Before the first kernel it counts the edges arriving at each node, raises the count to the power
  -1/2 and lays the result as a column: at (n, 0) this is the node weight d(n) (disStage_apply).  A bias vector is laid
  as a row (biasRow_apply).  After the last kernel it sums, per graph, the rows of the nodes whose batch word is the
  graph's number and divides by the larger of their count and one (poolStage_apply).
-/
import proofs.«113473_j73512660238714_2_alg».proof.Proof.Gen.KernelIdeal
import proofs.«113473_j73512660238714_2_alg».proof.Proof.Spec
import proofs.«113473_j73512660238714_2_alg».proof.Proof.LibSegSum
import proofs.«113473_j73512660238714_2_alg».proof.Proof.LibBcast
import proofs.«113473_j73512660238714_2_alg».proof.Proof.LibRowOps
import Idealize.ShloMosaic.Lib.ValueLayout

noncomputable section

open scoped BigOperators

namespace Cert.KernelIdeal.KStages

open Cert.KernelIdeal Cert.KernelIdeal.Facts₀ Idealize.ShloMosaic Idealize.ShloMosaic.ValueIdx

/-- The target words of the edge list: row 0 of the edge array with one self-loop per node appended. -/
def rowOf (ei : IVec S2x800000 32) : IVec S850000 32 :=
  shapeCast _ (extractStridedSlice S1x850000 ![0, 0] (concatenate S2x850000 1 [⟨S2x800000, ei⟩, ⟨S2x50000, (concatenate S2x50000 0 [⟨S1x50000, (broadcastInDim S1x50000 ![1] bcast_S50000_S1x50000_1 (iotaInDim S50000 32 0))⟩, ⟨S1x50000, (broadcastInDim S1x50000 ![1] bcast_S50000_S1x50000_1 (iotaInDim S50000 32 0))⟩] concatenates_S1x50000_S1x50000_S2x50000_d0)⟩] concatenates_S2x800000_S2x50000_S2x850000_d1) slices_S2x850000_S1x850000_0_0) shapeCasts_S1x850000_S850000

/-- The source words: row 1 likewise. -/
def colOf (ei : IVec S2x800000 32) : IVec S850000 32 :=
  shapeCast _ (extractStridedSlice S1x850000 ![1, 0] (concatenate S2x850000 1 [⟨S2x800000, ei⟩, ⟨S2x50000, (concatenate S2x50000 0 [⟨S1x50000, (broadcastInDim S1x50000 ![1] bcast_S50000_S1x50000_1 (iotaInDim S50000 32 0))⟩, ⟨S1x50000, (broadcastInDim S1x50000 ![1] bcast_S50000_S1x50000_1 (iotaInDim S50000 32 0))⟩] concatenates_S1x50000_S1x50000_S2x50000_d0)⟩] concatenates_S2x800000_S2x50000_S2x850000_d1) slices_S2x850000_S1x850000_1_0) shapeCasts_S1x850000_S850000

/-- A bias vector laid as a row. -/
def biasRow (b : FVec Ideal S128 .f32) : FVec Ideal S1x128 .f32 := shapeCast S1x128 b shapeCasts_S128_S1x128

/-- The host's power and quotient, entry by entry. -/
theorem powf_apply {s : Shape} (a b : FVec Ideal s .f32) (i : s.Idx) :
    Host.powf (F := Ideal) a b i = Ideal.pow (a i) (b i) := rfl

theorem hdivf_apply {s : Shape} (a b : FVec Ideal s .f32) (i : s.Idx) :
    Host.divf (F := Ideal) a b i = Ideal.div (a i) (b i) := rfl

/-- The source words wrapped from the end where negative. -/
def wrapCol (col : IVec S850000 32) : IVec S850000 32 :=
  select (cmpi .slt col (broadcastInDim S850000 ![] bcast_S_S850000 (constantI S_ 32 0#32)))
    (addi col (broadcastInDim S850000 ![] bcast_S_S850000 (constantI S_ 32 50000#32))) col

theorem wrapCol_apply (col : IVec S850000 32) (e : Fin 850000) :
    wrapCol col (ix1 e)
      = Scalar.select (IntOp.cmpi .slt (col (ix1 e)) 0#32) (IntOp.addi (col (ix1 e)) 50000#32) (col (ix1 e)) := by
  show Scalar.select (IntOp.cmpi .slt (col (ix1 e)) (broadcastInDim S850000 ![] bcast_S_S850000 (constantI S_ 32 0#32) (ix1 e)))
      (IntOp.addi (col (ix1 e)) (broadcastInDim S850000 ![] bcast_S_S850000 (constantI S_ 32 50000#32) (ix1 e))) (col (ix1 e)) = _
  rw [LibBcast.bcastScalar_apply, LibBcast.bcastScalar_apply]
  rfl

/-- Rows gathered at the source words and scatter-added at the target words. -/
def aggStage (hs : FVec Ideal S50000x128 .f32) (row col : IVec S850000 32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 row)
    (Host.gather gather_S50000x128_S850000x1_S850000x128_1_0_n_n_0_1_1128 hs
      (broadcastInDim S850000x1 ![0] bcast_S850000_S850000x1_0 (wrapCol col)))

theorem aggStage_apply (hs : FVec Ideal S50000x128 .f32) (row col : IVec S850000 32) (n : Fin 50000) (q : Fin 128) :
    aggStage hs row col (ix2 n q) = GcnSpec.aggN row col (fun n q => hs (ix2 n q)) n q := by
  unfold aggStage GcnSpec.aggN
  rw [show scatter_S50000x128_S850000x1_S850000x128_1_0_0_1
      = LibSegSum.rowsScatter 50000 128 850000 scatter_S50000x128_S850000x1_S850000x128_1_0_0_1_wf from rfl,
    LibSegSum.scatterRows_apply, LibBcast.bcastScalar_apply]
  refine congrArg₂ (· + ·) Ideal.ofBits_zero_f32 (Finset.sum_congr rfl fun e _ => ?_)
  rw [LibBcast.bcastVecCol_apply]
  refine if_congr Iff.rfl ?_ rfl
  rw [show gather_S50000x128_S850000x1_S850000x128_1_0_n_n_0_1_1128
      = LibGraph.rowsGather 50000 128 850000 gather_S50000x128_S850000x1_S850000x128_1_0_n_n_0_1_1128_wf from rfl,
    LibGraph.gatherRows_apply (by decide), LibBcast.bcastVecCol_apply, wrapCol_apply]
  rfl

/-- The node weights as a column: the arriving edges counted, raised to the power -1/2. -/
def disStage (row : IVec S850000 32) : FVec Ideal S50000x1 .f32 :=
  shapeCast S50000x1 (Host.powf (F := Ideal)
    (Host.scatterAdd (F := Ideal) scatter_S50000_S850000x1_S850000_n_0_0_1
      (broadcastInDim S50000 ![] bcast_S_S50000 (constant (F := Ideal) S_ .f32 0x00000000#32))
      (broadcastInDim S850000x1 ![0] bcast_S850000_S850000x1_0 row)
      (broadcastInDim S850000 ![] bcast_S_S850000 (constant (F := Ideal) S_ .f32 0x3F800000#32)))
    (broadcastInDim S50000 ![] bcast_S_S50000 (constant (F := Ideal) S_ .f32 0xBF000000#32))) shapeCasts_S50000_S50000x1

theorem disStage_apply (row : IVec S850000 32) (n : Fin 50000) :
    disStage row (ix2 n (0 : Fin 1)) = GcnSpec.dis row n := by
  unfold disStage GcnSpec.dis GcnSpec.deg
  rw [LibRowOps.shapeCast_a_a1_apply, powf_apply]
  rw [show scatter_S50000_S850000x1_S850000_n_0_0_1
      = LibSegSum.vecScatter 50000 850000 scatter_S50000_S850000x1_S850000_n_0_0_1_wf from rfl,
    LibSegSum.scatterVec_apply, LibBcast.bcastScalar_apply, LibBcast.bcastScalar_apply]
  refine congrArg₂ Ideal.pow (congrArg₂ (· + ·) Ideal.ofBits_zero_f32 (Finset.sum_congr rfl fun e _ => ?_)) rfl
  rw [LibBcast.bcastVecCol_apply, LibBcast.bcastScalar_apply]
  rfl

theorem biasRow_apply (b : FVec Ideal S128 .f32) (k : Fin 128) :
    biasRow b (ix2 (0 : Fin 1) k) = b (ix1 k) :=
  shapeCast_a_1a_apply b _ 0 k

/-- The mean over each graph. -/
def poolStage (h : FVec Ideal S50000x128 .f32) (batch : IVec S50000 32) : FVec Ideal S1000x128 .f32 :=
  Host.divf (F := Ideal)
    (Host.scatterAdd (F := Ideal) scatter_S1000x128_S50000x1_S50000x128_1_0_0_1
      (broadcastInDim S1000x128 ![] bcast_S_S1000x128 (constant (F := Ideal) S_ .f32 0x00000000#32))
      (broadcastInDim S50000x1 ![0] bcast_S50000_S50000x1_0 batch) h)
    (broadcastInDim S1000x128 ![0, 1] bcast_S1000x1_S1000x128_0_1
      (broadcastInDim S1000x1 ![0] bcast_S1000_S1000x1_0
        (maximumf
          (Host.scatterAdd (F := Ideal) scatter_S1000_S50000x1_S50000_n_0_0_1
            (broadcastInDim S1000 ![] bcast_S_S1000 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S1000 ![] bcast_S_S1000 (constant (F := Ideal) S_ .f32 0x3F800000#32)))))

theorem poolStage_apply (h : FVec Ideal S50000x128 .f32) (batch : IVec S50000 32) (g : Fin 1000) (q : Fin 128) :
    poolStage h batch (ix2 g q) = GcnSpec.pool batch (fun n q => h (ix2 n q)) g q := by
  unfold poolStage GcnSpec.pool
  rw [hdivf_apply]
  rw [show scatter_S1000x128_S50000x1_S50000x128_1_0_0_1
      = LibSegSum.rowsScatter 1000 128 50000 scatter_S1000x128_S50000x1_S50000x128_1_0_0_1_wf from rfl,
    LibSegSum.scatterRows_apply, LibBcast.bcastScalar_apply, LibBcast.bcastCol_apply, LibBcast.bcastVecCol_apply]
  rw [maximumf_apply]
  rw [show scatter_S1000_S50000x1_S50000_n_0_0_1
      = LibSegSum.vecScatter 1000 50000 scatter_S1000_S50000x1_S50000_n_0_0_1_wf from rfl,
    LibSegSum.scatterVec_apply, LibBcast.bcastScalar_apply, LibBcast.bcastScalar_apply]
  refine congrArg₂ Ideal.div
    (congrArg₂ (· + ·) Ideal.ofBits_zero_f32 (Finset.sum_congr rfl fun n _ => ?_))
    (congrArg₂ max (congrArg₂ (· + ·) Ideal.ofBits_zero_f32 (Finset.sum_congr rfl fun n _ => ?_)) rfl)
  · rw [LibBcast.bcastVecCol_apply]
  · rw [LibBcast.bcastVecCol_apply, LibBcast.bcastScalar_apply]
    rfl

end Cert.KernelIdeal.KStages

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.RegCommon.lean ====
/-
  What each of the four kernel bodies stores, read at one entry (p, q) of its 5000 × 128 block, at the ideal values.

  A narrowing format change is the identity on the extended reals; the matrix product into the zero accumulator is the
  sum over the contracted axis; a shape cast to the same shape is the identity; a column [5000, 1] repeated along the
  128 columns reads the column at (p, 0), a row [1, 128] repeated along the 5000 rows reads the row at (0, q); the
  splat of the zero word is 0.  So, with x the block of features, W the weight matrix, d the column of node weights,
  b the bias row:

    body 0    :  (Σ_k x(p, k) · W(k, q)) · d(p, 0)
    body 1, 2 :  (Σ_k max (d(p, 0) · x(p, k) + b(0, k)) 0 · W(k, q)) · d(p, 0)
    body 3    :  max (d(p, 0) · x(p, q) + b(0, q)) 0
-/
import proofs.«113473_j73512660238714_2_alg».proof.Proof.Gen.KernelIdeal.Skeleton
import proofs.«113473_j73512660238714_2_alg».proof.Proof.LibMatmulZero
import Idealize.ShloMosaic.Lib.ValueLayout
import Idealize.ShloMosaic.PureOps.Ideal.Laws

noncomputable section

open scoped BigOperators

namespace Cert.KernelIdeal.RegValue

open Cert.KernelIdeal Cert.KernelIdeal.Gen Idealize.ShloMosaic Idealize.ShloMosaic.ValueIdx

/-- The zero offsets of a whole-buffer access, however spelt. -/
theorem hz : (![0, 0] : Fin 2 → Nat) = fun _ => 0 := funext fun a => by fin_cases a <;> rfl

/-- A column [a, 1] repeated along b columns reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bodies' matrix product into the zero accumulator at (p, q): the sum over the 128 contracted positions. -/
theorem matmul5000_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  Cert.LibMatmulZero.matmul_zero_ix2 dot_S5000x128_S128x128_S5000x128_1_0_0_1_n_n rfl rfl rfl rfl
    (fun i c => by
      unfold DotDims.lhsIdx
      rw [dif_neg (show ¬(0 : Fin _) ∈ dot_S5000x128_S128x128_S5000x128_1_0_0_1_n_n.lhsBatch by decide),
        dif_pos (show (0 : Fin _) ∈ dot_S5000x128_S128x128_S5000x128_1_0_0_1_n_n.lhsNonContracting by decide)]
      rfl)
    (fun i c => by
      unfold DotDims.rhsIdx
      rw [dif_neg (show ¬(1 : Fin _) ∈ dot_S5000x128_S128x128_S5000x128_1_0_0_1_n_n.rhsBatch by decide),
        dif_pos (show (1 : Fin _) ∈ dot_S5000x128_S128x128_S5000x128_1_0_0_1_n_n.rhsNonContracting by decide)]
      rfl)
    none l r p q

/-- Body 0 at (p, q): the product row by column, times the node weight of row p. -/
theorem k0_pay1_apply (x : FVec Ideal S5000x128 .f32) (W : FVec Ideal S128x128 .f32) (d : FVec Ideal S5000x1 .f32)
    (p : Fin 5000) (q : Fin 128) :
    k0_pay1 (F := Ideal) x W d (ix2 p q) = (∑ k : Fin 128, x (ix2 p k) * W (ix2 k q)) * d (ix2 p (0 : Fin 1)) := by
  unfold k0_pay1
  refine (mulf_apply _ _ (ix2 p q)).trans ?_
  refine congrArg₂ (· * ·) ((matmul5000_apply _ _ p q).trans rfl) ?_
  refine (broadcastTo_a1_ab_apply _ _ p q).trans ?_
  rw [shapeCast_self]

/-- The row the later bodies clip at zero, at (p, k): the node weight of row p times the entry, plus the bias of
    column k, and 0 where that is negative. -/
theorem relu_row_apply (d : FVec Ideal S5000x1 .f32) (x : FVec Ideal S5000x128 .f32) (b : FVec Ideal S1x128 .f32)
    (hd : S5000x1.ShapeCasts S5000x1) (hx : S5000x128.ShapeCasts S5000x128) (hb : S1x128.ShapeCasts S1x128)
    (hdb : S5000x1.Broadcasts S5000x128) (hbb : S1x128.Broadcasts S5000x128) (p : Fin 5000) (k : Fin 128) :
    maximumf (addf (mulf (broadcastTo S5000x128 (shapeCast S5000x1 d hd) hdb) (shapeCast S5000x128 x hx))
        (broadcastTo S5000x128 (shapeCast S1x128 b hb) hbb))
      (broadcast S5000x128 (Scalar.ofBits (F := Ideal) .f32 0x00000000#32)) (ix2 p k)
      = max (d (ix2 p (0 : Fin 1)) * x (ix2 p k) + b (ix2 (0 : Fin 1) k)) 0 := by
  refine (maximumf_apply _ _ (ix2 p k)).trans ?_
  refine congrArg₂ max ?_ Ideal.ofBits_zero_f32
  refine (addf_apply _ _ (ix2 p k)).trans ?_
  refine congrArg₂ (· + ·) ?_ ?_
  · refine (mulf_apply _ _ (ix2 p k)).trans ?_
    refine congrArg₂ (· * ·) ?_ ?_
    · refine (broadcastTo_a1_ab_apply _ _ p k).trans ?_
      rw [shapeCast_self]
    · rw [shapeCast_self]
  · refine (broadcastTo_1b_ab_apply _ _ p k).trans ?_
    rw [shapeCast_self]

/-- Body 1 at (p, q): the clipped rows times the matrix, times the node weight of row p. -/
theorem k1_pay1_apply (d : FVec Ideal S5000x1 .f32) (x : FVec Ideal S5000x128 .f32) (b : FVec Ideal S1x128 .f32)
    (W : FVec Ideal S128x128 .f32) (d' : FVec Ideal S5000x1 .f32) (p : Fin 5000) (q : Fin 128) :
    k1_pay1 (F := Ideal) d x b W d' (ix2 p q)
      = (∑ k : Fin 128, max (d (ix2 p (0 : Fin 1)) * x (ix2 p k) + b (ix2 (0 : Fin 1) k)) 0 * W (ix2 k q))
        * d' (ix2 p (0 : Fin 1)) := by
  unfold k1_pay1
  refine (mulf_apply _ _ (ix2 p q)).trans ?_
  refine congrArg₂ (· * ·) ?_ ?_
  · refine (matmul5000_apply _ _ p q).trans ?_
    exact Finset.sum_congr rfl fun k _ => congrArg₂ (· * ·) (relu_row_apply d x b _ _ _ _ _ p k) rfl
  · refine (broadcastTo_a1_ab_apply _ _ p q).trans ?_
    rw [shapeCast_self]

/-- Body 2 is body 1's text. -/
theorem k2_pay1_apply (d : FVec Ideal S5000x1 .f32) (x : FVec Ideal S5000x128 .f32) (b : FVec Ideal S1x128 .f32)
    (W : FVec Ideal S128x128 .f32) (d' : FVec Ideal S5000x1 .f32) (p : Fin 5000) (q : Fin 128) :
    k2_pay1 (F := Ideal) d x b W d' (ix2 p q)
      = (∑ k : Fin 128, max (d (ix2 p (0 : Fin 1)) * x (ix2 p k) + b (ix2 (0 : Fin 1) k)) 0 * W (ix2 k q))
        * d' (ix2 p (0 : Fin 1)) := by
  unfold k2_pay1
  refine (mulf_apply _ _ (ix2 p q)).trans ?_
  refine congrArg₂ (· * ·) ?_ ?_
  · refine (matmul5000_apply _ _ p q).trans ?_
    exact Finset.sum_congr rfl fun k _ => congrArg₂ (· * ·) (relu_row_apply d x b _ _ _ _ _ p k) rfl
  · refine (broadcastTo_a1_ab_apply _ _ p q).trans ?_
    rw [shapeCast_self]

/-- Body 3 at (p, q): the clipped row alone. -/
theorem k3_pay1_apply (d : FVec Ideal S5000x1 .f32) (x : FVec Ideal S5000x128 .f32) (b : FVec Ideal S1x128 .f32)
    (p : Fin 5000) (q : Fin 128) :
    k3_pay1 (F := Ideal) d x b (ix2 p q) = max (d (ix2 p (0 : Fin 1)) * x (ix2 p q) + b (ix2 (0 : Fin 1) q)) 0 := by
  unfold k3_pay1
  exact relu_row_apply d x b _ _ _ _ _ p q

end Cert.KernelIdeal.RegValue

end
-- ==== Proof.Reg0.lean ====
/-
  What the first kernel leaves in its output array: (x W)(n, q) · d(n, 0), for every node n and channel q.

  The kernel runs over ten points; point t holds rows 5000 t … 5000 t + 4999 of the features and of the column of node
  weights, the whole weight matrix, and writes back rows 5000 t … 5000 t + 4999 of the result.  Row p of point t's
  block is row n = 5000 t + p of the array, so what the body stores at (p, q) is the array function at (n, q); the ten
  blocks tile the 50000 rows, so the array ends at that function everywhere.
-/
import proofs.«113473_j73512660238714_2_alg».proof.Proof.Gen.KernelIdeal.Frame
import proofs.«113473_j73512660238714_2_alg».proof.Proof.RegCommon
import proofs.«113473_j73512660238714_2_alg».proof.Proof.Spec
import Idealize.ShloMosaic.Lib.Pipeline.Value

noncomputable section

open scoped BigOperators

namespace Cert.KernelIdeal.RegValue

open Cert.KernelIdeal Cert.KernelIdeal.Gen Idealize.ShloMosaic Idealize.ShloMosaic.TcCoe Idealize.SL.Sem
  Idealize.ShloMosaic.ValueIdx
open Idealize.ShloMosaic.Pipeline (Dat)

variable (V : (c : Dev nD) → (b : Ref sig .tc) → Buf (Elt Ideal) ((c : Thread nD τ).loc b))

/-- The index maps over the grid: the row blocks move with the point, the whole-array windows stay at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's block of features is row 5000 t + p of the array. -/
theorem iblk0_0_apply (c : Dev nD) (t : Fin cfg0.N) (p : Fin 5000) (k : Fin 128) (n : Fin 50000)
    (hn : n.val = 5000 * t.val + p.val) :
    (iblk0 (F := Ideal) V c 0 t : FVec Ideal S5000x128 .f32) (ix2 p k)
      = (V c main_arg0 : FVec Ideal S50000x128 .f32) (ix2 n k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The weight matrix's block is the matrix at every point. -/
theorem iblk0_1_apply (c : Dev nD) (t : Fin cfg0.N) (k : Fin 128) (q : Fin 128) :
    (iblk0 (F := Ideal) V c 1 t : FVec Ideal S128x128 .f32) (ix2 k q)
      = (V c main_arg3 : FVec Ideal S128x128 .f32) (ix2 k q) := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Row p of point t's block of node weights is row 5000 t + p of the column. -/
theorem iblk0_2_apply (c : Dev nD) (t : Fin cfg0.N) (p : Fin 5000) (n : Fin 50000)
    (hn : n.val = 5000 * t.val + p.val) :
    (iblk0 (F := Ideal) V c 2 t : FVec Ideal S5000x1 .f32) (ix2 p (0 : Fin 1))
      = (V c main_v15 : FVec Ideal S50000x1 .f32) (ix2 n (0 : Fin 1)) := by
  obtain ⟨-, -, -, -, e4, e5, -⟩ := idx_facts0 t
  unfold iblk0
  rw [View.read_apply]
  show V c main_v15 _ = V c main_v15 _
  congr 1
  funext a
  apply Fin.ext
  match a with
  | ⟨0, _⟩ => show win0_2.index t (0 : Fin 2) * 5000 + 1 * p.val = n.val; rw [e4, hn]; omega
  | ⟨1, _⟩ => show win0_2.index t (1 : Fin 2) * 1 + 1 * 0 = 0; rw [e5]

/-- Entry (p, q) of point t's output block sits at (5000 t + p, q) of the array. -/
theorem emb0_3 (t : Fin cfg0.N) (p : Fin 5000) (q : Fin 128) (n : Fin 50000) (hn : n.val = 5000 * t.val + p.val) :
    ((cfg0.win 3).blk t).view.emb (ix2 p q) = (ix2 n q : S50000x128.Idx) := by
  obtain ⟨-, -, -, -, -, -, e6, e7⟩ := idx_facts0 t
  funext a
  apply Fin.ext
  match a with
  | ⟨0, _⟩ => show win0_3.index t (0 : Fin 2) * 5000 + 1 * p.val = n.val; rw [e6, hn]; omega
  | ⟨1, _⟩ => show win0_3.index t (1 : Fin 2) * 128 + 1 * q.val = q.val; rw [e7]; omega

/-- What the body stores at (p, q) of point t's block is the array function at (5000 t + p, q). -/
theorem stored0 (c : Dev nD) (t : Fin cfg0.N) (p : Fin 5000) (q : Fin 128) (n : Fin 50000)
    (hn : n.val = 5000 * t.val + p.val) :
    k0_pay1 (F := Ideal) (iblk0 V c 0 t) (iblk0 V c 1 t) (iblk0 V c 2 t) (ix2 p q)
      = Cert.GcnSpec.G0 (V c main_arg0) (V c main_arg3) (V c main_v15) (ix2 n q) := by
  refine (k0_pay1_apply _ _ _ p q).trans ?_
  refine Eq.trans ?_ (Cert.GcnSpec.G0_apply _ _ _ n q).symm
  refine congrArg₂ (· * ·) ?_ (iblk0_2_apply V c t p n hn)
  exact Finset.sum_congr rfl fun k _ => congrArg₂ (· * ·) (iblk0_0_apply V c t p k n hn) (iblk0_1_apply V c t k q)

/-- What point t writes back is block t of the array function. -/
theorem flushed0_eq (c : Dev nD) (t : Fin cfg0.N) :
    (dat0 (F := Ideal) V c).flushed 3 t
      = ((cfg0.win 3).blk t).view.read (Elt Ideal) (Cert.GcnSpec.G0 (V c main_arg0) (V c main_arg3) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 (n0 := 5000) (n1 := 128) j⟩
  have hN : cfg0.N = 10 := N_0
  have ht : t.val < 10 := hN ▸ t.isLt
  have hp : p.val < 5000 := p.isLt
  show k0_pay1 (F := Ideal) (iblk0 V c 0 t) (iblk0 V c 1 t) (iblk0 V c 2 t) (ix2 p q)
    = Cert.GcnSpec.G0 (V c main_arg0) (V c main_arg3) (V c main_v15) (((cfg0.win 3).blk t).view.emb (ix2 p q))
  rw [emb0_3 t p q ⟨5000 * t.val + p.val, by omega⟩ rfl]
  exact stored0 V c t p q _ rfl

/-- An index of the array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- The ten blocks tile the rows: row r is in the block of point r / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨-, -, -, -, -, -, e6, e7⟩ := idx_facts0 ⟨(i 0).val / 5000, by rw [hN]; omega⟩
  refine ⟨⟨(i 0).val / 5000, by rw [hN]; omega⟩, flush0_3 _, ?_⟩
  rw [mem_blk0]
  intro a
  match a with
  | ⟨0, _⟩ =>
    show win0_3.index _ (0 : Fin 2) * 5000 ≤ (i 0).val ∧ (i 0).val < win0_3.index _ (0 : Fin 2) * 5000 + 5000
    rw [e6]
    show (i 0).val / 5000 * 5000 ≤ (i 0).val ∧ (i 0).val < (i 0).val / 5000 * 5000 + 5000
    omega
  | ⟨1, _⟩ =>
    show win0_3.index _ (1 : Fin 2) * 128 ≤ (i 1).val ∧ (i 1).val < win0_3.index _ (1 : Fin 2) * 128 + 128
    rw [e7]
    omega

/-- The array after the first kernel: (x W)(n, q) · d(n, 0). -/
theorem final0 (c : Dev nD) :
    (dat0 (F := Ideal) V c).arrAt 3 cfg0.N = Cert.GcnSpec.G0 (V c main_arg0) (V c main_arg3) (V c main_v15) :=
  (dat0 (F := Ideal) V c).arrAt_eq_of_cover 3 _ (fun t _ => flushed0_eq V c t) cover0

end Cert.KernelIdeal.RegValue

end
-- ==== Proof.Reg1.lean ====
/-
  What the second kernel leaves in its output array: (max (d · a + b) 0  W)(n, q) · d(n, 0), for every node n and
  channel q — a the aggregate it is given, d the column of node weights, b the bias row, W the next weight matrix.

  The kernel runs over ten points; point t holds rows 5000 t … 5000 t + 4999 of the aggregate and of the column of node
  weights, the whole bias row and weight matrix, and writes back rows 5000 t … 5000 t + 4999 of the result.  Row p of
  point t's block is row n = 5000 t + p of the array, so what the body stores at (p, q) is the array function at
  (n, q); the ten blocks tile the 50000 rows, so the array ends at that function everywhere.
-/
import proofs.«113473_j73512660238714_2_alg».proof.Proof.Gen.KernelIdeal.Frame
import proofs.«113473_j73512660238714_2_alg».proof.Proof.RegCommon
import proofs.«113473_j73512660238714_2_alg».proof.Proof.Spec
import Idealize.ShloMosaic.Lib.Pipeline.Value

noncomputable section

open scoped BigOperators

namespace Cert.KernelIdeal.RegValue

open Cert.KernelIdeal Cert.KernelIdeal.Gen Idealize.ShloMosaic Idealize.ShloMosaic.TcCoe Idealize.SL.Sem
  Idealize.ShloMosaic.ValueIdx
open Idealize.ShloMosaic.Pipeline (Dat)

variable (V : (c : Dev nD) → (b : Ref sig .tc) → Buf (Elt Ideal) ((c : Thread nD τ).loc b))

/-- The index maps over the grid: the row blocks move with the point, the whole-array windows stay at block 0
    (the output's first). -/
theorem idx_facts1 : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Row p of point t's block of features is row 5000 t + p of the array. -/
theorem iblk1_0_apply (c : Dev nD) (t : Fin cfg1.N) (p : Fin 5000) (k : Fin 128) (n : Fin 50000)
    (hn : n.val = 5000 * t.val + p.val) :
    (iblk1 (F := Ideal) V c 0 t : FVec Ideal S5000x128 .f32) (ix2 p k)
      = (V c main_v26 : FVec Ideal S50000x128 .f32) (ix2 n k) := by
  obtain ⟨-, -, e0, e1, -⟩ := idx_facts1 t
  unfold iblk1
  rw [View.read_apply]
  show V c main_v26 _ = V c main_v26 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

/-- Row p of point t's block of node weights is row 5000 t + p of the column. -/
theorem iblk1_1_apply (c : Dev nD) (t : Fin cfg1.N) (p : Fin 5000) (n : Fin 50000)
    (hn : n.val = 5000 * t.val + p.val) :
    (iblk1 (F := Ideal) V c 1 t : FVec Ideal S5000x1 .f32) (ix2 p (0 : Fin 1))
      = (V c main_v15 : FVec Ideal S50000x1 .f32) (ix2 n (0 : Fin 1)) := by
  obtain ⟨-, -, -, -, e0, e1, -⟩ := idx_facts1 t
  unfold iblk1
  rw [View.read_apply]
  show V c main_v15 _ = V c main_v15 _
  congr 1
  funext a
  apply Fin.ext
  match a with
  | ⟨0, _⟩ => show win1_1.index t (0 : Fin 2) * 5000 + 1 * p.val = n.val; rw [e0, hn]; omega
  | ⟨1, _⟩ => show win1_1.index t (1 : Fin 2) * 1 + 1 * 0 = 0; rw [e1]

/-- The bias row's block is the row at every point. -/
theorem iblk1_2_apply (c : Dev nD) (t : Fin cfg1.N) (u : Fin 1) (k : Fin 128) :
    (iblk1 (F := Ideal) V c 2 t : FVec Ideal S1x128 .f32) (ix2 u k)
      = (V c main_v27 : FVec Ideal S1x128 .f32) (ix2 u k) := by
  obtain ⟨-, -, -, -, -, -, e0, e1, -⟩ := idx_facts1 t
  unfold iblk1
  rw [View.read_apply]
  show V c main_v27 _ = V c main_v27 _
  congr 1
  funext a
  apply Fin.ext
  match a with
  | ⟨0, _⟩ => show win1_2.index t (0 : Fin 2) * 1 + 1 * (u).val = (u).val; rw [e0]; omega
  | ⟨1, _⟩ => show win1_2.index t (1 : Fin 2) * 128 + 1 * (k).val = (k).val; rw [e1]; omega

/-- The weight matrix's block is the matrix at every point. -/
theorem iblk1_3_apply (c : Dev nD) (t : Fin cfg1.N) (k : Fin 128) (q : Fin 128) :
    (iblk1 (F := Ideal) V c 3 t : FVec Ideal S128x128 .f32) (ix2 k q)
      = (V c main_arg5 : FVec Ideal S128x128 .f32) (ix2 k q) := by
  obtain ⟨-, -, -, -, -, -, -, -, e0, e1⟩ := idx_facts1 t
  unfold iblk1
  rw [View.read_apply]
  show V c main_arg5 _ = V c main_arg5 _
  congr 1
  funext a
  apply Fin.ext
  match a with
  | ⟨0, _⟩ => show win1_3.index t (0 : Fin 2) * 128 + 1 * (k).val = (k).val; rw [e0]; omega
  | ⟨1, _⟩ => show win1_3.index t (1 : Fin 2) * 128 + 1 * (q).val = (q).val; rw [e1]; omega

/-- Entry (p, q) of point t's output block sits at (5000 t + p, q) of the array. -/
theorem emb1_4 (t : Fin cfg1.N) (p : Fin 5000) (q : Fin 128) (n : Fin 50000) (hn : n.val = 5000 * t.val + p.val) :
    ((cfg1.win 4).blk t).view.emb (ix2 p q) = (ix2 n q : S50000x128.Idx) := by
  obtain ⟨eo0, eo1, -⟩ := idx_facts1 t
  funext a
  apply Fin.ext
  match a with
  | ⟨0, _⟩ => show win1_4.index t (0 : Fin 2) * 5000 + 1 * p.val = n.val; rw [eo0, hn]; omega
  | ⟨1, _⟩ => show win1_4.index t (1 : Fin 2) * 128 + 1 * q.val = q.val; rw [eo1]; omega

/-- What the body stores at (p, q) of point t's block is the array function at (5000 t + p, q). -/
theorem stored1 (c : Dev nD) (t : Fin cfg1.N) (p : Fin 5000) (q : Fin 128) (n : Fin 50000)
    (hn : n.val = 5000 * t.val + p.val) :
    k1_pay1 (F := Ideal) (iblk1 V c 1 t) (iblk1 V c 0 t) (iblk1 V c 2 t) (iblk1 V c 3 t) (iblk1 V c 1 t) (ix2 p q)
      = Cert.GcnSpec.G1 (V c main_v26) (V c main_v15) (V c main_v27) (V c main_arg5) (ix2 n q) := by
  refine (k1_pay1_apply _ _ _ _ _ p q).trans ?_
  refine Eq.trans ?_ (Cert.GcnSpec.G1_apply _ _ _ _ n q).symm
  refine congrArg₂ (· * ·) ?_ (iblk1_1_apply V c t p n hn)
  refine Finset.sum_congr rfl fun k _ => congrArg₂ (· * ·) ?_ (iblk1_3_apply V c t k q)
  refine congrArg₂ max ?_ rfl
  refine congrArg₂ (· + ·) ?_ (iblk1_2_apply V c t 0 k)
  exact congrArg₂ (· * ·) (iblk1_1_apply V c t p n hn) (iblk1_0_apply V c t p k n hn)

/-- What point t writes back is block t of the array function. -/
theorem flushed1_eq (c : Dev nD) (t : Fin cfg1.N) :
    (dat1 (F := Ideal) V c).flushed 4 t
      = ((cfg1.win 4).blk t).view.read (Elt Ideal) (Cert.GcnSpec.G1 (V c main_v26) (V c main_v15) (V c main_v27) (V c main_arg5)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S5000x1) hz,
    View.ld_unit_zero (S := S1x128) hz]
  funext j
  obtain ⟨p, q, rfl⟩ : ∃ (p : Fin 5000) (q : Fin 128), j = ix2 p q := ⟨j 0, j 1, eq_ix2 (n0 := 5000) (n1 := 128) j⟩
  have hN : cfg1.N = 10 := N_1
  have ht : t.val < 10 := hN ▸ t.isLt
  have hp : p.val < 5000 := p.isLt
  show k1_pay1 (F := Ideal) (iblk1 V c 1 t) (iblk1 V c 0 t) (iblk1 V c 2 t) (iblk1 V c 3 t) (iblk1 V c 1 t) (ix2 p q)
    = Cert.GcnSpec.G1 (V c main_v26) (V c main_v15) (V c main_v27) (V c main_arg5) (((cfg1.win 4).blk t).view.emb (ix2 p q))
  rw [emb1_4 t p q ⟨5000 * t.val + p.val, by omega⟩ rfl]
  exact stored1 V c t p q _ rfl

/-- An index of the array is in point t's block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v28).slice (win1_4.rect t)).set ↔ _
  rw [View.set_slice_whole, Rect.mem_set_unit]
  exact Iff.rfl

/-- The ten blocks tile the rows: row r is in the block of point r / 5000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨eo0, eo1, -⟩ := idx_facts1 ⟨(i 0).val / 5000, by rw [hN]; omega⟩
  refine ⟨⟨(i 0).val / 5000, by rw [hN]; omega⟩, flush1_4 _, ?_⟩
  rw [mem_blk1]
  intro a
  match a with
  | ⟨0, _⟩ =>
    show win1_4.index _ (0 : Fin 2) * 5000 ≤ (i 0).val ∧ (i 0).val < win1_4.index _ (0 : Fin 2) * 5000 + 5000
    rw [eo0]
    show (i 0).val / 5000 * 5000 ≤ (i 0).val ∧ (i 0).val < (i 0).val / 5000 * 5000 + 5000
    omega
  | ⟨1, _⟩ =>
    show win1_4.index _ (1 : Fin 2) * 128 ≤ (i 1).val ∧ (i 1).val < win1_4.index _ (1 : Fin 2) * 128 + 128
    rw [eo1]
    omega

/-- The array after the second kernel: (max (d · a + b) 0  W)(n, q) · d(n, 0). -/
theorem final1 (c : Dev nD) :
    (dat1 (F := Ideal) V c).arrAt 4 cfg1.N = Cert.GcnSpec.G1 (V c main_v26) (V c main_v15) (V c main_v27) (V c main_arg5) :=
  (dat1 (F := Ideal) V c).arrAt_eq_of_cover 4 _ (fun t _ => flushed1_eq V c t) cover1

end Cert.KernelIdeal.RegValue

end
-- ==== Proof.Reg2.lean ====
/-
  What the third kernel leaves in its output array: (max (d · a + b) 0  W)(n, q) · d(n, 0), for every node n and
  channel q — a the aggregate it is given, d the column of node weights, b the bias row, W the next weight matrix.

  The kernel runs over ten points; point t holds rows 5000 t … 5000 t + 4999 of the aggregate and of the column of node
  weights, the whole bias row and weight matrix, and writes back rows 5000 t … 5000 t + 4999 of the result.  Row p of
  point t's block is row n = 5000 t + p of the array, so what the body stores at (p, q) is the array function at
  (n, q); the ten blocks tile the 50000 rows, so the array ends at that function everywhere.
-/
import proofs.«113473_j73512660238714_2_alg».proof.Proof.Gen.KernelIdeal.Frame
import proofs.«113473_j73512660238714_2_alg».proof.Proof.RegCommon
import proofs.«113473_j73512660238714_2_alg».proof.Proof.Spec
import Idealize.ShloMosaic.Lib.Pipeline.Value

noncomputable section

open scoped BigOperators

namespace Cert.KernelIdeal.RegValue

open Cert.KernelIdeal Cert.KernelIdeal.Gen Idealize.ShloMosaic Idealize.ShloMosaic.TcCoe Idealize.SL.Sem
  Idealize.ShloMosaic.ValueIdx
open Idealize.ShloMosaic.Pipeline (Dat)

variable (V : (c : Dev nD) → (b : Ref sig .tc) → Buf (Elt Ideal) ((c : Thread nD τ).loc b))

/-- The index maps over the grid: the row blocks move with the point, the whole-array windows stay at block 0
    (the output's first). -/
theorem idx_facts2 : ∀ t : Fin cfg2.N,
    win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Row p of point t's block of features is row 5000 t + p of the array. -/
theorem iblk2_0_apply (c : Dev nD) (t : Fin cfg2.N) (p : Fin 5000) (k : Fin 128) (n : Fin 50000)
    (hn : n.val = 5000 * t.val + p.val) :
    (iblk2 (F := Ideal) V c 0 t : FVec Ideal S5000x128 .f32) (ix2 p k)
      = (V c main_v38 : FVec Ideal S50000x128 .f32) (ix2 n k) := by
  obtain ⟨-, -, e0, e1, -⟩ := idx_facts2 t
  unfold iblk2
  rw [View.read_apply]
  show V c main_v38 _ = V c main_v38 _
  congr 1
  funext a
  apply Fin.ext
  match a with
  | ⟨0, _⟩ => show win2_0.index t (0 : Fin 2) * 5000 + 1 * p.val = n.val; rw [e0, hn]; omega
  | ⟨1, _⟩ => show win2_0.index t (1 : Fin 2) * 128 + 1 * k.val = k.val; rw [e1]; omega

/-- Row p of point t's block of node weights is row 5000 t + p of the column. -/
theorem iblk2_1_apply (c : Dev nD) (t : Fin cfg2.N) (p : Fin 5000) (n : Fin 50000)
    (hn : n.val = 5000 * t.val + p.val) :
    (iblk2 (F := Ideal) V c 1 t : FVec Ideal S5000x1 .f32) (ix2 p (0 : Fin 1))
      = (V c main_v15 : FVec Ideal S50000x1 .f32) (ix2 n (0 : Fin 1)) := by
  obtain ⟨-, -, -, -, e0, e1, -⟩ := idx_facts2 t
  unfold iblk2
  rw [View.read_apply]
  show V c main_v15 _ = V c main_v15 _
  congr 1
  funext a
  apply Fin.ext
  match a with
  | ⟨0, _⟩ => show win2_1.index t (0 : Fin 2) * 5000 + 1 * p.val = n.val; rw [e0, hn]; omega
  | ⟨1, _⟩ => show win2_1.index t (1 : Fin 2) * 1 + 1 * 0 = 0; rw [e1]

/-- The bias row's block is the row at every point. -/
theorem iblk2_2_apply (c : Dev nD) (t : Fin cfg2.N) (u : Fin 1) (k : Fin 128) :
    (iblk2 (F := Ideal) V c 2 t : FVec Ideal S1x128 .f32) (ix2 u k)
      = (V c main_v39 : FVec Ideal S1x128 .f32) (ix2 u k) := by
  obtain ⟨-, -, -, -, -, -, e0, e1, -⟩ := idx_facts2 t
  unfold iblk2
  rw [View.read_apply]
  show V c main_v39 _ = V c main_v39 _
  congr 1
  funext a
  apply Fin.ext
  match a with
  | ⟨0, _⟩ => show win2_2.index t (0 : Fin 2) * 1 + 1 * (u).val = (u).val; rw [e0]; omega
  | ⟨1, _⟩ => show win2_2.index t (1 : Fin 2) * 128 + 1 * (k).val = (k).val; rw [e1]; omega

/-- The weight matrix's block is the matrix at every point. -/
theorem iblk2_3_apply (c : Dev nD) (t : Fin cfg2.N) (k : Fin 128) (q : Fin 128) :
    (iblk2 (F := Ideal) V c 3 t : FVec Ideal S128x128 .f32) (ix2 k q)
      = (V c main_arg7 : FVec Ideal S128x128 .f32) (ix2 k q) := by
  obtain ⟨-, -, -, -, -, -, -, -, e0, e1⟩ := idx_facts2 t
  unfold iblk2
  rw [View.read_apply]
  show V c main_arg7 _ = V c main_arg7 _
  congr 1
  funext a
  apply Fin.ext
  match a with
  | ⟨0, _⟩ => show win2_3.index t (0 : Fin 2) * 128 + 1 * (k).val = (k).val; rw [e0]; omega
  | ⟨1, _⟩ => show win2_3.index t (1 : Fin 2) * 128 + 1 * (q).val = (q).val; rw [e1]; omega

/-- Entry (p, q) of point t's output block sits at (5000 t + p, q) of the array. -/
theorem emb2_4 (t : Fin cfg2.N) (p : Fin 5000) (q : Fin 128) (n : Fin 50000) (hn : n.val = 5000 * t.val + p.val) :
    ((cfg2.win 4).blk t).view.emb (ix2 p q) = (ix2 n q : S50000x128.Idx) := by
  obtain ⟨eo0, eo1, -⟩ := idx_facts2 t
  funext a
  apply Fin.ext
  match a with
  | ⟨0, _⟩ => show win2_4.index t (0 : Fin 2) * 5000 + 1 * p.val = n.val; rw [eo0, hn]; omega
  | ⟨1, _⟩ => show win2_4.index t (1 : Fin 2) * 128 + 1 * q.val = q.val; rw [eo1]; omega

/-- What the body stores at (p, q) of point t's block is the array function at (5000 t + p, q). -/
theorem stored2 (c : Dev nD) (t : Fin cfg2.N) (p : Fin 5000) (q : Fin 128) (n : Fin 50000)
    (hn : n.val = 5000 * t.val + p.val) :
    k2_pay1 (F := Ideal) (iblk2 V c 1 t) (iblk2 V c 0 t) (iblk2 V c 2 t) (iblk2 V c 3 t) (iblk2 V c 1 t) (ix2 p q)
      = Cert.GcnSpec.G1 (V c main_v38) (V c main_v15) (V c main_v39) (V c main_arg7) (ix2 n q) := by
  refine (k2_pay1_apply _ _ _ _ _ p q).trans ?_
  refine Eq.trans ?_ (Cert.GcnSpec.G1_apply _ _ _ _ n q).symm
  refine congrArg₂ (· * ·) ?_ (iblk2_1_apply V c t p n hn)
  refine Finset.sum_congr rfl fun k _ => congrArg₂ (· * ·) ?_ (iblk2_3_apply V c t k q)
  refine congrArg₂ max ?_ rfl
  refine congrArg₂ (· + ·) ?_ (iblk2_2_apply V c t 0 k)
  exact congrArg₂ (· * ·) (iblk2_1_apply V c t p n hn) (iblk2_0_apply V c t p k n hn)

/-- What point t writes back is block t of the array function. -/
theorem flushed2_eq (c : Dev nD) (t : Fin cfg2.N) :
    (dat2 (F := Ideal) V c).flushed 4 t
      = ((cfg2.win 4).blk t).view.read (Elt Ideal) (Cert.GcnSpec.G1 (V c main_v38) (V c main_v15) (V c main_v39) (V c main_arg7)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S5000x1) hz,
    View.ld_unit_zero (S := S1x128) hz]
  funext j
  obtain ⟨p, q, rfl⟩ : ∃ (p : Fin 5000) (q : Fin 128), j = ix2 p q := ⟨j 0, j 1, eq_ix2 (n0 := 5000) (n1 := 128) j⟩
  have hN : cfg2.N = 10 := N_2
  have ht : t.val < 10 := hN ▸ t.isLt
  have hp : p.val < 5000 := p.isLt
  show k2_pay1 (F := Ideal) (iblk2 V c 1 t) (iblk2 V c 0 t) (iblk2 V c 2 t) (iblk2 V c 3 t) (iblk2 V c 1 t) (ix2 p q)
    = Cert.GcnSpec.G1 (V c main_v38) (V c main_v15) (V c main_v39) (V c main_arg7) (((cfg2.win 4).blk t).view.emb (ix2 p q))
  rw [emb2_4 t p q ⟨5000 * t.val + p.val, by omega⟩ rfl]
  exact stored2 V c t p q _ rfl

/-- An index of the array is in point t's block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v40).slice (win2_4.rect t)).set ↔ _
  rw [View.set_slice_whole, Rect.mem_set_unit]
  exact Iff.rfl

/-- The ten blocks tile the rows: row r is in the block of point r / 5000. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  obtain ⟨eo0, eo1, -⟩ := idx_facts2 ⟨(i 0).val / 5000, by rw [hN]; omega⟩
  refine ⟨⟨(i 0).val / 5000, by rw [hN]; omega⟩, flush2_4 _, ?_⟩
  rw [mem_blk2]
  intro a
  match a with
  | ⟨0, _⟩ =>
    show win2_4.index _ (0 : Fin 2) * 5000 ≤ (i 0).val ∧ (i 0).val < win2_4.index _ (0 : Fin 2) * 5000 + 5000
    rw [eo0]
    show (i 0).val / 5000 * 5000 ≤ (i 0).val ∧ (i 0).val < (i 0).val / 5000 * 5000 + 5000
    omega
  | ⟨1, _⟩ =>
    show win2_4.index _ (1 : Fin 2) * 128 ≤ (i 1).val ∧ (i 1).val < win2_4.index _ (1 : Fin 2) * 128 + 128
    rw [eo1]
    omega

/-- The array after the third kernel: (max (d · a + b) 0  W)(n, q) · d(n, 0). -/
theorem final2 (c : Dev nD) :
    (dat2 (F := Ideal) V c).arrAt 4 cfg2.N = Cert.GcnSpec.G1 (V c main_v38) (V c main_v15) (V c main_v39) (V c main_arg7) :=
  (dat2 (F := Ideal) V c).arrAt_eq_of_cover 4 _ (fun t _ => flushed2_eq V c t) cover2

end Cert.KernelIdeal.RegValue

end
-- ==== Proof.Reg3.lean ====
/-
  What the last kernel leaves in its output array: max (d(n, 0) · a(n, q) + b(0, q)) 0, for every node n and channel q
  — a the aggregate it is given, d the column of node weights, b the bias row.

  The kernel runs over ten points; point t holds rows 5000 t … 5000 t + 4999 of the aggregate and of the column of node
  weights, the whole bias row, and writes back rows 5000 t … 5000 t + 4999 of the result.  Row p of point t's block is
  row n = 5000 t + p of the array, so what the body stores at (p, q) is the array function at (n, q); the ten blocks
  tile the 50000 rows, so the array ends at that function everywhere.
-/
import proofs.«113473_j73512660238714_2_alg».proof.Proof.Gen.KernelIdeal.Frame
import proofs.«113473_j73512660238714_2_alg».proof.Proof.RegCommon
import proofs.«113473_j73512660238714_2_alg».proof.Proof.Spec
import Idealize.ShloMosaic.Lib.Pipeline.Value

noncomputable section

open scoped BigOperators

namespace Cert.KernelIdeal.RegValue

open Cert.KernelIdeal Cert.KernelIdeal.Gen Idealize.ShloMosaic Idealize.ShloMosaic.TcCoe Idealize.SL.Sem
  Idealize.ShloMosaic.ValueIdx
open Idealize.ShloMosaic.Pipeline (Dat)

variable (V : (c : Dev nD) → (b : Ref sig .tc) → Buf (Elt Ideal) ((c : Thread nD τ).loc b))

/-- The index maps over the grid: the row blocks move with the point, the bias row stays at block 0 (the output's
    first). -/
theorem idx_facts3 : ∀ t : Fin cfg3.N,
    win3_3.index t (0 : Fin 2) = t.val ∧ win3_3.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- Row p of point t's block of features is row 5000 t + p of the array. -/
theorem iblk3_0_apply (c : Dev nD) (t : Fin cfg3.N) (p : Fin 5000) (k : Fin 128) (n : Fin 50000)
    (hn : n.val = 5000 * t.val + p.val) :
    (iblk3 (F := Ideal) V c 0 t : FVec Ideal S5000x128 .f32) (ix2 p k)
      = (V c main_v50 : FVec Ideal S50000x128 .f32) (ix2 n k) := by
  obtain ⟨-, -, e0, e1, -⟩ := idx_facts3 t
  unfold iblk3
  rw [View.read_apply]
  show V c main_v50 _ = V c main_v50 _
  congr 1
  funext a
  apply Fin.ext
  match a with
  | ⟨0, _⟩ => show win3_0.index t (0 : Fin 2) * 5000 + 1 * p.val = n.val; rw [e0, hn]; omega
  | ⟨1, _⟩ => show win3_0.index t (1 : Fin 2) * 128 + 1 * k.val = k.val; rw [e1]; omega

/-- Row p of point t's block of node weights is row 5000 t + p of the column. -/
theorem iblk3_1_apply (c : Dev nD) (t : Fin cfg3.N) (p : Fin 5000) (n : Fin 50000)
    (hn : n.val = 5000 * t.val + p.val) :
    (iblk3 (F := Ideal) V c 1 t : FVec Ideal S5000x1 .f32) (ix2 p (0 : Fin 1))
      = (V c main_v15 : FVec Ideal S50000x1 .f32) (ix2 n (0 : Fin 1)) := by
  obtain ⟨-, -, -, -, e0, e1, -⟩ := idx_facts3 t
  unfold iblk3
  rw [View.read_apply]
  show V c main_v15 _ = V c main_v15 _
  congr 1
  funext a
  apply Fin.ext
  match a with
  | ⟨0, _⟩ => show win3_1.index t (0 : Fin 2) * 5000 + 1 * p.val = n.val; rw [e0, hn]; omega
  | ⟨1, _⟩ => show win3_1.index t (1 : Fin 2) * 1 + 1 * 0 = 0; rw [e1]

/-- The bias row's block is the row at every point. -/
theorem iblk3_2_apply (c : Dev nD) (t : Fin cfg3.N) (u : Fin 1) (k : Fin 128) :
    (iblk3 (F := Ideal) V c 2 t : FVec Ideal S1x128 .f32) (ix2 u k)
      = (V c main_v51 : FVec Ideal S1x128 .f32) (ix2 u k) := by
  obtain ⟨-, -, -, -, -, -, e0, e1⟩ := idx_facts3 t
  unfold iblk3
  rw [View.read_apply]
  show V c main_v51 _ = V c main_v51 _
  congr 1
  funext a
  apply Fin.ext
  match a with
  | ⟨0, _⟩ => show win3_2.index t (0 : Fin 2) * 1 + 1 * (u).val = (u).val; rw [e0]; omega
  | ⟨1, _⟩ => show win3_2.index t (1 : Fin 2) * 128 + 1 * (k).val = (k).val; rw [e1]; omega

/-- Entry (p, q) of point t's output block sits at (5000 t + p, q) of the array. -/
theorem emb3_3 (t : Fin cfg3.N) (p : Fin 5000) (q : Fin 128) (n : Fin 50000) (hn : n.val = 5000 * t.val + p.val) :
    ((cfg3.win 3).blk t).view.emb (ix2 p q) = (ix2 n q : S50000x128.Idx) := by
  obtain ⟨eo0, eo1, -⟩ := idx_facts3 t
  funext a
  apply Fin.ext
  match a with
  | ⟨0, _⟩ => show win3_3.index t (0 : Fin 2) * 5000 + 1 * p.val = n.val; rw [eo0, hn]; omega
  | ⟨1, _⟩ => show win3_3.index t (1 : Fin 2) * 128 + 1 * q.val = q.val; rw [eo1]; omega

/-- What the body stores at (p, q) of point t's block is the array function at (5000 t + p, q). -/
theorem stored3 (c : Dev nD) (t : Fin cfg3.N) (p : Fin 5000) (q : Fin 128) (n : Fin 50000)
    (hn : n.val = 5000 * t.val + p.val) :
    k3_pay1 (F := Ideal) (iblk3 V c 1 t) (iblk3 V c 0 t) (iblk3 V c 2 t) (ix2 p q)
      = Cert.GcnSpec.G3 (V c main_v50) (V c main_v15) (V c main_v51) (ix2 n q) := by
  refine (k3_pay1_apply _ _ _ p q).trans ?_
  refine Eq.trans ?_ (Cert.GcnSpec.G3_apply _ _ _ n q).symm
  refine congrArg₂ max ?_ rfl
  refine congrArg₂ (· + ·) ?_ (iblk3_2_apply V c t 0 q)
  exact congrArg₂ (· * ·) (iblk3_1_apply V c t p n hn) (iblk3_0_apply V c t p q n hn)

/-- What point t writes back is block t of the array function. -/
theorem flushed3_eq (c : Dev nD) (t : Fin cfg3.N) :
    (dat3 (F := Ideal) V c).flushed 3 t
      = ((cfg3.win 3).blk t).view.read (Elt Ideal) (Cert.GcnSpec.G3 (V c main_v50) (V c main_v15) (V c main_v51)) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  have hN : cfg3.N = 10 := N_3
  have ht : t.val < 10 := hN ▸ t.isLt
  have hp : p.val < 5000 := p.isLt
  show k3_pay1 (F := Ideal) (iblk3 V c 1 t) (iblk3 V c 0 t) (iblk3 V c 2 t) (ix2 p q)
    = Cert.GcnSpec.G3 (V c main_v50) (V c main_v15) (V c main_v51) (((cfg3.win 3).blk t).view.emb (ix2 p q))
  rw [emb3_3 t p q ⟨5000 * t.val + p.val, by omega⟩ rfl]
  exact stored3 V c t p q _ rfl

/-- An index of the array is in point t's block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v52).slice (win3_3.rect t)).set ↔ _
  rw [View.set_slice_whole, Rect.mem_set_unit]
  exact Iff.rfl

/-- The ten blocks tile the rows: row r is in the block of point r / 5000. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  obtain ⟨eo0, eo1, -⟩ := idx_facts3 ⟨(i 0).val / 5000, by rw [hN]; omega⟩
  refine ⟨⟨(i 0).val / 5000, by rw [hN]; omega⟩, flush3_3 _, ?_⟩
  rw [mem_blk3]
  intro a
  match a with
  | ⟨0, _⟩ =>
    show win3_3.index _ (0 : Fin 2) * 5000 ≤ (i 0).val ∧ (i 0).val < win3_3.index _ (0 : Fin 2) * 5000 + 5000
    rw [eo0]
    show (i 0).val / 5000 * 5000 ≤ (i 0).val ∧ (i 0).val < (i 0).val / 5000 * 5000 + 5000
    omega
  | ⟨1, _⟩ =>
    show win3_3.index _ (1 : Fin 2) * 128 ≤ (i 1).val ∧ (i 1).val < win3_3.index _ (1 : Fin 2) * 128 + 128
    rw [eo1]
    omega

/-- The array after the last kernel: max (d(n, 0) · a(n, q) + b(0, q)) 0. -/
theorem final3 (c : Dev nD) :
    (dat3 (F := Ideal) V c).arrAt 3 cfg3.N = Cert.GcnSpec.G3 (V c main_v50) (V c main_v15) (V c main_v51) :=
  (dat3 (F := Ideal) V c).arrAt_eq_of_cover 3 _ (fun t _ => flushed3_eq V c t) cover3

end Cert.KernelIdeal.RegValue

end
-- ==== Proof.KFold.lean ====
/-
  The buffers of the idealized kernel program at the boundaries between its host stretches and its kernels, walked from
  the launch memory to the result.

  A boundary's contents are a fold: a host stretch applies its operations to the previous contents, a kernel region
  replaces its output array by what its blocks leave and keeps everything else.  A buffer that no later operation
  writes and that no later kernel has as an output therefore keeps its contents: the edge list's target and source
  words, the column of node weights, and the arguments.  With them, the array each kernel leaves and the aggregate each
  host stretch forms are functions of the arguments alone: the last boundary's result buffer is the pooled mean of what
  the fourth kernel leaves.
-/
import proofs.«113473_j73512660238714_2_alg».proof.Proof.Gen.KernelIdeal.Frame
import proofs.«113473_j73512660238714_2_alg».proof.Proof.KStages
import proofs.«113473_j73512660238714_2_alg».proof.Proof.Reg0
import proofs.«113473_j73512660238714_2_alg».proof.Proof.Reg1
import proofs.«113473_j73512660238714_2_alg».proof.Proof.Reg2
import proofs.«113473_j73512660238714_2_alg».proof.Proof.Reg3
import Idealize.ShloMosaic.Lib.StableHlo.Run

noncomputable section

namespace Cert.KernelIdeal.KFold

open Cert.KernelIdeal Cert.KernelIdeal.Gen Cert.KernelIdeal.KStages Cert.KernelIdeal.RegValue
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- A buffer none of a host stretch's operations writes keeps its contents through the stretch. -/
macro "host_keep" : tactic => `(tactic| (
  refine StableHlo.after_of_forall_not_mem _ _ (List.forall_iff_forall_mem.mp ?_)
  simp only [hostOps0, hostOps1, hostOps2, hostOps3, hostOps4, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- The edge words, the node weights and the arguments, as the program's first host stretch leaves them. -/
abbrev row : IVec S850000 32 := rowOf (m ((c : Thread nD τ).loc main_arg1))
abbrev col : IVec S850000 32 := colOf (m ((c : Thread nD τ).loc main_arg1))
abbrev dcol : FVec Ideal S50000x1 .f32 := disStage (row m c)

/-! ## After the first host stretch -/

theorem W1_v6 : W1 m ρ c (Proc.devRef .tc main_v6) = row m c := by
  show StableHlo.after hostOps0 (W0 m ρ c) (Proc.devRef .tc main_v6) = _
  after_results
  rfl
theorem W1_v8 : W1 m ρ c (Proc.devRef .tc main_v8) = col m c := by
  show StableHlo.after hostOps0 (W0 m ρ c) (Proc.devRef .tc main_v8) = _
  after_results
  rfl
theorem W1_v15 : W1 m ρ c (Proc.devRef .tc main_v15) = dcol m c := by
  show StableHlo.after hostOps0 (W0 m ρ c) (Proc.devRef .tc main_v15) = _
  after_results
  rfl
theorem W1_arg0 : W1 m ρ c (Proc.devRef .tc main_arg0) = (m ((c : Thread nD τ).loc main_arg0)) := by
  show StableHlo.after hostOps0 (W0 m ρ c) (Proc.devRef .tc main_arg0) = _
  host_keep
theorem W1_arg2 : W1 m ρ c (Proc.devRef .tc main_arg2) = (m ((c : Thread nD τ).loc main_arg2)) := by
  show StableHlo.after hostOps0 (W0 m ρ c) (Proc.devRef .tc main_arg2) = _
  host_keep
theorem W1_arg3 : W1 m ρ c (Proc.devRef .tc main_arg3) = (m ((c : Thread nD τ).loc main_arg3)) := by
  show StableHlo.after hostOps0 (W0 m ρ c) (Proc.devRef .tc main_arg3) = _
  host_keep
theorem W1_arg4 : W1 m ρ c (Proc.devRef .tc main_arg4) = (m ((c : Thread nD τ).loc main_arg4)) := by
  show StableHlo.after hostOps0 (W0 m ρ c) (Proc.devRef .tc main_arg4) = _
  host_keep
theorem W1_arg5 : W1 m ρ c (Proc.devRef .tc main_arg5) = (m ((c : Thread nD τ).loc main_arg5)) := by
  show StableHlo.after hostOps0 (W0 m ρ c) (Proc.devRef .tc main_arg5) = _
  host_keep
theorem W1_arg6 : W1 m ρ c (Proc.devRef .tc main_arg6) = (m ((c : Thread nD τ).loc main_arg6)) := by
  show StableHlo.after hostOps0 (W0 m ρ c) (Proc.devRef .tc main_arg6) = _
  host_keep
theorem W1_arg7 : W1 m ρ c (Proc.devRef .tc main_arg7) = (m ((c : Thread nD τ).loc main_arg7)) := by
  show StableHlo.after hostOps0 (W0 m ρ c) (Proc.devRef .tc main_arg7) = _
  host_keep
theorem W1_arg8 : W1 m ρ c (Proc.devRef .tc main_arg8) = (m ((c : Thread nD τ).loc main_arg8)) := by
  show StableHlo.after hostOps0 (W0 m ρ c) (Proc.devRef .tc main_arg8) = _
  host_keep

/-! ## After the first kernel -/

theorem W2_v6 : W2 m ρ c (Proc.devRef .tc main_v6) = row m c := (W2_of_ne m ρ c main_v6 (by decide)).trans (W1_v6 m ρ c)
theorem W2_v8 : W2 m ρ c (Proc.devRef .tc main_v8) = col m c := (W2_of_ne m ρ c main_v8 (by decide)).trans (W1_v8 m ρ c)
theorem W2_v15 : W2 m ρ c (Proc.devRef .tc main_v15) = dcol m c :=
  (W2_arr m ρ c 2).trans (((dat0 (V1 m ρ) c).arrAt_in 2 rfl _).trans ((A_eq0 (V1 m ρ) c 2).trans (W1_v15 m ρ c)))
theorem W2_arg2 : W2 m ρ c (Proc.devRef .tc main_arg2) = (m ((c : Thread nD τ).loc main_arg2)) := (W2_of_ne m ρ c main_arg2 (by decide)).trans (W1_arg2 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)
theorem W2_arg8 : W2 m ρ c (Proc.devRef .tc main_arg8) = (m ((c : Thread nD τ).loc main_arg8)) := (W2_of_ne m ρ c main_arg8 (by decide)).trans (W1_arg8 m ρ c)
/-- What the first kernel leaves: the projected features, each row weighted by its node. -/
def hs0 : FVec Ideal S50000x128 .f32 := GcnSpec.G0 (m ((c : Thread nD τ).loc main_arg0)) (m ((c : Thread nD τ).loc main_arg3)) (dcol m c)
theorem W2_v16 : W2 m ρ c (Proc.devRef .tc main_v16) = hs0 m c := by
  exact (W2_arr m ρ c 3).trans ((final0 (V1 m ρ) c).trans
    (congr (congr (congrArg GcnSpec.G0 (W1_arg0 m ρ c)) (W1_arg3 m ρ c)) (W1_v15 m ρ c)))

/-! ## After host stretch 1 -/

theorem W3_v6 : W3 m ρ c (Proc.devRef .tc main_v6) = row m c :=
  (show StableHlo.after hostOps1 (W2 m ρ c) (Proc.devRef .tc main_v6) = W2 m ρ c (Proc.devRef .tc main_v6) by host_keep).trans (W2_v6 m ρ c)
theorem W3_v8 : W3 m ρ c (Proc.devRef .tc main_v8) = col m c :=
  (show StableHlo.after hostOps1 (W2 m ρ c) (Proc.devRef .tc main_v8) = W2 m ρ c (Proc.devRef .tc main_v8) by host_keep).trans (W2_v8 m ρ c)
theorem W3_v15 : W3 m ρ c (Proc.devRef .tc main_v15) = dcol m c :=
  (show StableHlo.after hostOps1 (W2 m ρ c) (Proc.devRef .tc main_v15) = W2 m ρ c (Proc.devRef .tc main_v15) by host_keep).trans (W2_v15 m ρ c)
theorem W3_arg2 : W3 m ρ c (Proc.devRef .tc main_arg2) = (m ((c : Thread nD τ).loc main_arg2)) :=
  (show StableHlo.after hostOps1 (W2 m ρ c) (Proc.devRef .tc main_arg2) = W2 m ρ c (Proc.devRef .tc main_arg2) by host_keep).trans (W2_arg2 m ρ c)
theorem W3_arg5 : W3 m ρ c (Proc.devRef .tc main_arg5) = (m ((c : Thread nD τ).loc main_arg5)) :=
  (show StableHlo.after hostOps1 (W2 m ρ c) (Proc.devRef .tc main_arg5) = W2 m ρ c (Proc.devRef .tc main_arg5) by host_keep).trans (W2_arg5 m ρ c)
theorem W3_arg6 : W3 m ρ c (Proc.devRef .tc main_arg6) = (m ((c : Thread nD τ).loc main_arg6)) :=
  (show StableHlo.after hostOps1 (W2 m ρ c) (Proc.devRef .tc main_arg6) = W2 m ρ c (Proc.devRef .tc main_arg6) by host_keep).trans (W2_arg6 m ρ c)
theorem W3_arg7 : W3 m ρ c (Proc.devRef .tc main_arg7) = (m ((c : Thread nD τ).loc main_arg7)) :=
  (show StableHlo.after hostOps1 (W2 m ρ c) (Proc.devRef .tc main_arg7) = W2 m ρ c (Proc.devRef .tc main_arg7) by host_keep).trans (W2_arg7 m ρ c)
theorem W3_arg8 : W3 m ρ c (Proc.devRef .tc main_arg8) = (m ((c : Thread nD τ).loc main_arg8)) :=
  (show StableHlo.after hostOps1 (W2 m ρ c) (Proc.devRef .tc main_arg8) = W2 m ρ c (Proc.devRef .tc main_arg8) by host_keep).trans (W2_arg8 m ρ c)
/-- The aggregate of the weighted rows over the arriving edges. -/
def agg1 : FVec Ideal S50000x128 .f32 := aggStage (hs0 m c) (row m c) (col m c)
theorem W3_v26 : W3 m ρ c (Proc.devRef .tc main_v26) = agg1 m c := by
  have e : W3 m ρ c (Proc.devRef .tc main_v26) = aggStage (W2 m ρ c (Proc.devRef .tc main_v16)) (W2 m ρ c (Proc.devRef .tc main_v6)) (W2 m ρ c (Proc.devRef .tc main_v8)) := by
    show StableHlo.after hostOps1 (W2 m ρ c) (Proc.devRef .tc main_v26) = _
    after_results
    rfl
  exact e.trans (congr (congr (congrArg aggStage (W2_v16 m ρ c)) (W2_v6 m ρ c)) (W2_v8 m ρ c))
theorem W3_v27 : W3 m ρ c (Proc.devRef .tc main_v27) = biasRow (m ((c : Thread nD τ).loc main_arg4)) := by
  have e : W3 m ρ c (Proc.devRef .tc main_v27) = biasRow (W2 m ρ c (Proc.devRef .tc main_arg4)) := by
    show StableHlo.after hostOps1 (W2 m ρ c) (Proc.devRef .tc main_v27) = _
    after_results
    rfl
  exact e.trans (congrArg biasRow (W2_arg4 m ρ c))

/-! ## After kernel 1 -/

theorem W4_v6 : W4 m ρ c (Proc.devRef .tc main_v6) = row m c := (W4_of_ne m ρ c main_v6 (by decide)).trans (W3_v6 m ρ c)
theorem W4_v8 : W4 m ρ c (Proc.devRef .tc main_v8) = col m c := (W4_of_ne m ρ c main_v8 (by decide)).trans (W3_v8 m ρ c)
theorem W4_arg2 : W4 m ρ c (Proc.devRef .tc main_arg2) = (m ((c : Thread nD τ).loc main_arg2)) := (W4_of_ne m ρ c main_arg2 (by decide)).trans (W3_arg2 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)
theorem W4_arg8 : W4 m ρ c (Proc.devRef .tc main_arg8) = (m ((c : Thread nD τ).loc main_arg8)) := (W4_of_ne m ρ c main_arg8 (by decide)).trans (W3_arg8 m ρ c)
theorem W4_v15 : W4 m ρ c (Proc.devRef .tc main_v15) = dcol m c :=
  (W4_arr m ρ c 1).trans (((dat1 (V3 m ρ) c).arrAt_in 1 rfl _).trans ((A_eq1 (V3 m ρ) c 1).trans (W3_v15 m ρ c)))
/-- What the second kernel leaves. -/
def hs1 : FVec Ideal S50000x128 .f32 := GcnSpec.G1 (agg1 m c) (dcol m c) (biasRow (m ((c : Thread nD τ).loc main_arg4))) (m ((c : Thread nD τ).loc main_arg5))
theorem W4_v28 : W4 m ρ c (Proc.devRef .tc main_v28) = hs1 m c := by
  exact (W4_arr m ρ c 4).trans ((final1 (V3 m ρ) c).trans
    (congr (congr (congr (congrArg GcnSpec.G1 (W3_v26 m ρ c)) (W3_v15 m ρ c)) (W3_v27 m ρ c)) (W3_arg5 m ρ c)))

/-! ## After host stretch 2 -/

theorem W5_v6 : W5 m ρ c (Proc.devRef .tc main_v6) = row m c :=
  (show StableHlo.after hostOps2 (W4 m ρ c) (Proc.devRef .tc main_v6) = W4 m ρ c (Proc.devRef .tc main_v6) by host_keep).trans (W4_v6 m ρ c)
theorem W5_v8 : W5 m ρ c (Proc.devRef .tc main_v8) = col m c :=
  (show StableHlo.after hostOps2 (W4 m ρ c) (Proc.devRef .tc main_v8) = W4 m ρ c (Proc.devRef .tc main_v8) by host_keep).trans (W4_v8 m ρ c)
theorem W5_v15 : W5 m ρ c (Proc.devRef .tc main_v15) = dcol m c :=
  (show StableHlo.after hostOps2 (W4 m ρ c) (Proc.devRef .tc main_v15) = W4 m ρ c (Proc.devRef .tc main_v15) by host_keep).trans (W4_v15 m ρ c)
theorem W5_arg2 : W5 m ρ c (Proc.devRef .tc main_arg2) = (m ((c : Thread nD τ).loc main_arg2)) :=
  (show StableHlo.after hostOps2 (W4 m ρ c) (Proc.devRef .tc main_arg2) = W4 m ρ c (Proc.devRef .tc main_arg2) by host_keep).trans (W4_arg2 m ρ c)
theorem W5_arg7 : W5 m ρ c (Proc.devRef .tc main_arg7) = (m ((c : Thread nD τ).loc main_arg7)) :=
  (show StableHlo.after hostOps2 (W4 m ρ c) (Proc.devRef .tc main_arg7) = W4 m ρ c (Proc.devRef .tc main_arg7) by host_keep).trans (W4_arg7 m ρ c)
theorem W5_arg8 : W5 m ρ c (Proc.devRef .tc main_arg8) = (m ((c : Thread nD τ).loc main_arg8)) :=
  (show StableHlo.after hostOps2 (W4 m ρ c) (Proc.devRef .tc main_arg8) = W4 m ρ c (Proc.devRef .tc main_arg8) by host_keep).trans (W4_arg8 m ρ c)
/-- The aggregate of the weighted rows over the arriving edges. -/
def agg2 : FVec Ideal S50000x128 .f32 := aggStage (hs1 m c) (row m c) (col m c)
theorem W5_v38 : W5 m ρ c (Proc.devRef .tc main_v38) = agg2 m c := by
  have e : W5 m ρ c (Proc.devRef .tc main_v38) = aggStage (W4 m ρ c (Proc.devRef .tc main_v28)) (W4 m ρ c (Proc.devRef .tc main_v6)) (W4 m ρ c (Proc.devRef .tc main_v8)) := by
    show StableHlo.after hostOps2 (W4 m ρ c) (Proc.devRef .tc main_v38) = _
    after_results
    rfl
  exact e.trans (congr (congr (congrArg aggStage (W4_v28 m ρ c)) (W4_v6 m ρ c)) (W4_v8 m ρ c))
theorem W5_v39 : W5 m ρ c (Proc.devRef .tc main_v39) = biasRow (m ((c : Thread nD τ).loc main_arg6)) := by
  have e : W5 m ρ c (Proc.devRef .tc main_v39) = biasRow (W4 m ρ c (Proc.devRef .tc main_arg6)) := by
    show StableHlo.after hostOps2 (W4 m ρ c) (Proc.devRef .tc main_v39) = _
    after_results
    rfl
  exact e.trans (congrArg biasRow (W4_arg6 m ρ c))

/-! ## After kernel 2 -/

theorem W6_v6 : W6 m ρ c (Proc.devRef .tc main_v6) = row m c := (W6_of_ne m ρ c main_v6 (by decide)).trans (W5_v6 m ρ c)
theorem W6_v8 : W6 m ρ c (Proc.devRef .tc main_v8) = col m c := (W6_of_ne m ρ c main_v8 (by decide)).trans (W5_v8 m ρ c)
theorem W6_arg2 : W6 m ρ c (Proc.devRef .tc main_arg2) = (m ((c : Thread nD τ).loc main_arg2)) := (W6_of_ne m ρ c main_arg2 (by decide)).trans (W5_arg2 m ρ c)
theorem W6_arg8 : W6 m ρ c (Proc.devRef .tc main_arg8) = (m ((c : Thread nD τ).loc main_arg8)) := (W6_of_ne m ρ c main_arg8 (by decide)).trans (W5_arg8 m ρ c)
theorem W6_v15 : W6 m ρ c (Proc.devRef .tc main_v15) = dcol m c :=
  (W6_arr m ρ c 1).trans (((dat2 (V5 m ρ) c).arrAt_in 1 rfl _).trans ((A_eq2 (V5 m ρ) c 1).trans (W5_v15 m ρ c)))
/-- What the third kernel leaves. -/
def hs2 : FVec Ideal S50000x128 .f32 := GcnSpec.G1 (agg2 m c) (dcol m c) (biasRow (m ((c : Thread nD τ).loc main_arg6))) (m ((c : Thread nD τ).loc main_arg7))
theorem W6_v40 : W6 m ρ c (Proc.devRef .tc main_v40) = hs2 m c := by
  exact (W6_arr m ρ c 4).trans ((final2 (V5 m ρ) c).trans
    (congr (congr (congr (congrArg GcnSpec.G1 (W5_v38 m ρ c)) (W5_v15 m ρ c)) (W5_v39 m ρ c)) (W5_arg7 m ρ c)))

/-! ## After host stretch 3 -/

theorem W7_v15 : W7 m ρ c (Proc.devRef .tc main_v15) = dcol m c :=
  (show StableHlo.after hostOps3 (W6 m ρ c) (Proc.devRef .tc main_v15) = W6 m ρ c (Proc.devRef .tc main_v15) by host_keep).trans (W6_v15 m ρ c)
theorem W7_arg2 : W7 m ρ c (Proc.devRef .tc main_arg2) = (m ((c : Thread nD τ).loc main_arg2)) :=
  (show StableHlo.after hostOps3 (W6 m ρ c) (Proc.devRef .tc main_arg2) = W6 m ρ c (Proc.devRef .tc main_arg2) by host_keep).trans (W6_arg2 m ρ c)
/-- The aggregate of the weighted rows over the arriving edges. -/
def agg3 : FVec Ideal S50000x128 .f32 := aggStage (hs2 m c) (row m c) (col m c)
set_option maxHeartbeats 2000000 in
theorem W7_v50 : W7 m ρ c (Proc.devRef .tc main_v50) = agg3 m c := by
  have e : W7 m ρ c (Proc.devRef .tc main_v50) = aggStage (W6 m ρ c (Proc.devRef .tc main_v40)) (W6 m ρ c (Proc.devRef .tc main_v6)) (W6 m ρ c (Proc.devRef .tc main_v8)) := by
    show StableHlo.after hostOps3 (W6 m ρ c) (Proc.devRef .tc main_v50) = _
    after_results
    rfl
  exact e.trans (congr (congr (congrArg aggStage (W6_v40 m ρ c)) (W6_v6 m ρ c)) (W6_v8 m ρ c))
theorem W7_v51 : W7 m ρ c (Proc.devRef .tc main_v51) = biasRow (m ((c : Thread nD τ).loc main_arg8)) := by
  have e : W7 m ρ c (Proc.devRef .tc main_v51) = biasRow (W6 m ρ c (Proc.devRef .tc main_arg8)) := by
    show StableHlo.after hostOps3 (W6 m ρ c) (Proc.devRef .tc main_v51) = _
    after_results
    rfl
  exact e.trans (congrArg biasRow (W6_arg8 m ρ c))

/-! ## After kernel 3 -/

theorem W8_arg2 : W8 m ρ c (Proc.devRef .tc main_arg2) = (m ((c : Thread nD τ).loc main_arg2)) := (W8_of_ne m ρ c main_arg2 (by decide)).trans (W7_arg2 m ρ c)
/-- What the fourth kernel leaves. -/
def h3 : FVec Ideal S50000x128 .f32 := GcnSpec.G3 (agg3 m c) (dcol m c) (biasRow (m ((c : Thread nD τ).loc main_arg8)))
theorem W8_v52 : W8 m ρ c (Proc.devRef .tc main_v52) = h3 m c := by
  exact (W8_arr m ρ c 3).trans ((final3 (V7 m ρ) c).trans
    (congr (congr (congrArg GcnSpec.G3 (W7_v50 m ρ c)) (W7_v15 m ρ c)) (W7_v51 m ρ c)))

/-! ## After the last host stretch -/

set_option maxHeartbeats 1600000 in
/-- The result buffer at the last boundary: the mean over each graph of what the fourth kernel leaves. -/
theorem W9_v64 : W9 m ρ c (Proc.devRef .tc main_v64) = poolStage (h3 m c) (m ((c : Thread nD τ).loc main_arg2)) := by
  have e : W9 m ρ c (Proc.devRef .tc main_v64) = poolStage (W8 m ρ c (Proc.devRef .tc main_v52)) (W8 m ρ c (Proc.devRef .tc main_arg2)) := by
    show StableHlo.after hostOps4 (W8 m ρ c) (Proc.devRef .tc main_v64) = _
    after_results
    rfl
  exact e.trans (congr (congrArg poolStage (W8_v52 m ρ c)) (W8_arg2 m ρ c))

end Cert.KernelIdeal.KFold

end
-- ==== Proof.KRun.lean ====
/-
  The run of the idealized kernel program with its RESULT named.  The program is four pipelined kernels among five
  stretches of host operations; its buffers at the boundaries between them are a fold from the launch memory: a host
  stretch applies its operations, a kernel region replaces its arrays by what its write-backs leave.  Every weakly fair
  execution terminates, without a fault, with every unscoped buffer of every core at the last boundary's contents; in
  particular the result buffer, and the nine arguments as they were launched.
-/
import proofs.«113473_j73512660238714_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result buffer at the last boundary's contents and the arguments as launched. -/
theorem run : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.KRun

end
-- ==== Proof.KValue.lean ====
/-
  The idealized kernel program's result, entry by entry: the pooled mean of the three layers computed per node.

  Each kernel's array and each host aggregate, read at an entry, is the matching index-level function of the layer before:
  the first kernel leaves the projected features with each row weighted by its node's weight; a host stretch sums the
  weighted rows over the arriving edges; the second and third kernels weight that sum, add the bias, clip at zero,
  project and weight again; the fourth weights, adds the bias and clips.  Composed, the array the fourth kernel leaves
  is the three layers normalised per node, and the program's result is its mean over each graph.
-/
import proofs.«113473_j73512660238714_2_alg».proof.Proof.KFold
import proofs.«113473_j73512660238714_2_alg».proof.Proof.KRun

noncomputable section

open scoped BigOperators

namespace Cert.KernelIdeal.KValue

open Cert.KernelIdeal Cert.KernelIdeal.Gen Cert.KernelIdeal.KStages Cert.KernelIdeal.KFold
open Idealize.ShloMosaic Idealize.ShloMosaic.TcCoe Idealize.SL.Sem Idealize.ShloMosaic.ValueIdx

section Reads
variable (rw' cl : IVec S850000 32) (d : FVec Ideal S50000x1 .f32) (hd : ∀ n : Fin 50000, d (ix2 n (0 : Fin 1)) = GcnSpec.dis rw' n)
include hd

/-- The first kernel's array: projected features, rows weighted. -/
theorem G0_read (x : FVec Ideal S50000x128 .f32) (W : FVec Ideal S128x128 .f32) (n : Fin 50000) (q : Fin 128) :
    GcnSpec.G0 x W d (ix2 n q) = GcnSpec.scaled rw' (GcnSpec.proj (GcnSpec.feat x) W) n q := by
  rw [GcnSpec.G0_apply, hd]
  rfl

/-- A middle kernel's array: the aggregate weighted, biased, clipped, projected, weighted. -/
theorem G1_read (a : FVec Ideal S50000x128 .f32) (g : Fin 50000 → Fin 128 → EReal)
    (ha : ∀ (n : Fin 50000) (k : Fin 128), a (ix2 n k) = GcnSpec.aggN rw' cl g n k)
    (b : FVec Ideal S128 .f32) (W : FVec Ideal S128x128 .f32) (n : Fin 50000) (q : Fin 128) :
    GcnSpec.G1 a d (biasRow b) W (ix2 n q) = GcnSpec.scaled rw' (GcnSpec.proj (GcnSpec.actN rw' cl g b) W) n q := by
  rw [GcnSpec.G1_apply, hd]
  unfold GcnSpec.scaled GcnSpec.proj GcnSpec.actN
  refine congrArg (· * GcnSpec.dis rw' n) (Finset.sum_congr rfl fun k _ => ?_)
  rw [ha, biasRow_apply]

/-- The last kernel's array: the aggregate weighted, biased, clipped. -/
theorem G3_read (a : FVec Ideal S50000x128 .f32) (g : Fin 50000 → Fin 128 → EReal)
    (ha : ∀ (n : Fin 50000) (k : Fin 128), a (ix2 n k) = GcnSpec.aggN rw' cl g n k)
    (b : FVec Ideal S128 .f32) (n : Fin 50000) (q : Fin 128) :
    GcnSpec.G3 a d (biasRow b) (ix2 n q) = GcnSpec.actN rw' cl g b n q := by
  rw [GcnSpec.G3_apply, hd, ha, biasRow_apply]
  rfl

end Reads

/-- A host aggregate of an array that is a known function of its coordinates. -/
theorem agg_read (rw' cl : IVec S850000 32) (hs : FVec Ideal S50000x128 .f32) (g : Fin 50000 → Fin 128 → EReal)
    (h : ∀ (n : Fin 50000) (q : Fin 128), hs (ix2 n q) = g n q) (n : Fin 50000) (q : Fin 128) :
    aggStage hs rw' cl (ix2 n q) = GcnSpec.aggN rw' cl g n q := by
  rw [aggStage_apply]
  exact congrArg (fun f => GcnSpec.aggN rw' cl f n q) (funext fun n => funext fun q => h n q)

variable (m : (ℓ : Loc nD τ sig) → Buf (Elt Ideal) ℓ) (ρ : Dev nD → PrngReg) (c : Dev nD)

/-- What the fourth kernel leaves is the three layers normalised per node. -/
theorem h3_apply (n : Fin 50000) (q : Fin 128) :
    h3 m c (ix2 n q) = GcnSpec.nodeH3 (row m c) (col m c) (m ((c : Thread nD τ).loc main_arg0))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) n q := by
  have hd : ∀ n : Fin 50000, dcol m c (ix2 n (0 : Fin 1)) = GcnSpec.dis (row m c) n := fun n => disStage_apply _ n
  have k0 := G0_read (row m c) (dcol m c) hd (m ((c : Thread nD τ).loc main_arg0)) (m ((c : Thread nD τ).loc main_arg3))
  have a1 := agg_read (row m c) (col m c) (hs0 m c) _ k0
  have k1 := G1_read (row m c) (col m c) (dcol m c) hd (agg1 m c) _ a1 (m ((c : Thread nD τ).loc main_arg4)) (m ((c : Thread nD τ).loc main_arg5))
  have a2 := agg_read (row m c) (col m c) (hs1 m c) _ k1
  have k2 := G1_read (row m c) (col m c) (dcol m c) hd (agg2 m c) _ a2 (m ((c : Thread nD τ).loc main_arg6)) (m ((c : Thread nD τ).loc main_arg7))
  have a3 := agg_read (row m c) (col m c) (hs2 m c) _ k2
  exact G3_read (row m c) (col m c) (dcol m c) hd (agg3 m c) _ a3 (m ((c : Thread nD τ).loc main_arg8)) n q

/-- The result buffer at the last boundary is the pooled mean of the three layers normalised per node. -/
theorem result : W9 m ρ c (Proc.devRef .tc main_v64)
    = GcnSpec.poolArr (m ((c : Thread nD τ).loc main_arg2))
        (GcnSpec.nodeH3 (row m c) (col m c) (m ((c : Thread nD τ).loc main_arg0))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))) := by
  rw [W9_v64]
  funext i
  obtain ⟨g, q, rfl⟩ : ∃ (g : Fin 1000) (q : Fin 128), i = ix2 g q := ⟨i 0, i 1, eq_ix2 i⟩
  rw [poolStage_apply, GcnSpec.poolArr_apply]
  exact congrArg (fun f => GcnSpec.pool (m ((c : Thread nD τ).loc main_arg2)) f g q)
    (funext fun n => funext fun q => h3_apply m c n q)

/-- Every execution of the idealized kernel program ends with the result at the pooled mean of the three layers
    normalised per node, the arguments as launched. -/
theorem run : θ_run (defs (F := Ideal)) (onTc (τ := τ) (main (F := Ideal))) ⟨m, fun _ => 0, ρ⟩ (fun r => ∀ c : Dev nD,
      r.2.mem ((c.tc : Thread nD τ).loc main_v64)
        = GcnSpec.poolArr (m ((c : Thread nD τ).loc main_arg2))
            (GcnSpec.nodeH3 (row m c) (col m c) (m ((c : Thread nD τ).loc main_arg0))
              (m ((c : Thread nD τ).loc main_arg3)) (m ((c : Thread nD τ).loc main_arg4)) (m ((c : Thread nD τ).loc main_arg5))
              (m ((c : Thread nD τ).loc main_arg6)) (m ((c : Thread nD τ).loc main_arg7)) (m ((c : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (KRun.run m ρ)

end Cert.KernelIdeal.KValue

end
-- ==== Proof.LibHostDot.lean ====
/-
  The host's matrix product read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values the host's `dot_general` has, at
  entry (p, q), the value
      Σ_{k < K} l(p, k) · r(k, q).
  The sum over the contraction shape's one-axis index type is re-indexed over `Fin K`; the operand indices the
  dimension numbers read at result entry (p, q) and contracted position k are (p, k) and (k, q).

  The hypotheses `hl0` and `hr1` say that the result's axis 0 is the left operand's axis 0 and the result's axis 1
  the right operand's axis 1; for a printed record `D` with no batch axes each is
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibHostDot

open Idealize.ShloMosaic Idealize.ShloMosaic.ValueIdx

/-- `Host.dotGeneral D prec l r (p, q) = Σ_k l(p, k) · r(k, q)` at the ideal values, for two-dimensional operands
    with one contracted axis. -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral D prec l r (ix2 p q) = ∑ k : Fin K, l (ix2 p k) * r (ix2 k q) := by
  simp only [Host.dotGeneral]
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibHostDot

end
-- ==== Proof.RefLayer.lean ====
/-
  One layer of the reference's graph convolution as an array-level term, read at one entry.

  The layer is a function of an edge list's target words (row) and source words (col), node features h : [50000, 128],
  a weight matrix W : [128, 128] and a bias b : [128]:

      deg  = the zero vector [50000] with 1.0 added at every edge's target word,
      dis  = deg ^ (-0.5) entrywise,
      w    = dis[wrap row] * dis[wrap col]                       (one number per edge),
      agg  = the zero table [50000, 128] with w(e) * (h W)[wrap col e, ·] added at row (row e),
      out  = max (agg + b) 0,

  where wrap v = (v < 0 ? v + 50000 : v), a gather clamps the wrapped word into the table, and a scatter-add drops
  an update whose word, read signed and neither wrapped nor clamped, is outside [0, 50000).  Read at (n, q) this is
  the per-edge layer of the index-level description:  layerArr row col h W b (n, q) = layerE row col g W b n q
  whenever h (n, k) = g n k for all n, k  (layerArr_apply).  Every sum is a finite sum of extended reals; nothing is
  assumed finite about the features.
-/
import proofs.«113473_j73512660238714_2_alg».proof.Proof.Gen.ReferenceIdeal
import proofs.«113473_j73512660238714_2_alg».proof.Proof.Gen.ReferenceIdeal.Read
import proofs.«113473_j73512660238714_2_alg».proof.Proof.Spec
import proofs.«113473_j73512660238714_2_alg».proof.Proof.LibSegSum
import proofs.«113473_j73512660238714_2_alg».proof.Proof.LibGraphOps
import proofs.«113473_j73512660238714_2_alg».proof.Proof.LibBcast
import proofs.«113473_j73512660238714_2_alg».proof.Proof.LibHostDot

noncomputable section

open scoped BigOperators

namespace Cert.RefSide

open Cert.ReferenceIdeal Cert.ReferenceIdeal.Gen Idealize.ShloMosaic Idealize.ShloMosaic.ValueIdx

/-- A vector of edge words wrapped from the end where negative. -/
def wrapA (v : IVec S850000 32) : IVec S850000 32 :=
  select (cmpi .slt v (broadcastInDim S850000 ![] bcast_S_S850000 (constantI S_ 32 0#32))) (addi v (broadcastInDim S850000 ![] bcast_S_S850000 (constantI S_ 32 50000#32))) v

theorem wrapA_apply (v : IVec S850000 32) (e : Fin 850000) :
    wrapA v (ix1 e) = Scalar.select (IntOp.cmpi .slt (v (ix1 e)) 0#32) (IntOp.addi (v (ix1 e)) 50000#32) (v (ix1 e)) := by
  show Scalar.select (IntOp.cmpi .slt (v (ix1 e)) (broadcastInDim S850000 ![] bcast_S_S850000 (constantI S_ 32 0#32) (ix1 e)))
      (IntOp.addi (v (ix1 e)) (broadcastInDim S850000 ![] bcast_S_S850000 (constantI S_ 32 50000#32) (ix1 e))) (v (ix1 e)) = _
  rw [LibBcast.bcastScalar_apply, LibBcast.bcastScalar_apply]
  rfl

/-- The clamp of a wrapped word is the node the word names. -/
theorem clamp_wrapA (v : IVec S850000 32) (e : Fin 850000) :
    LibGraph.clampIdx 50000 (by decide) (wrapA v (ix1 e)) = GcnSpec.node (v (ix1 e)) := by
  rw [wrapA_apply]
  rfl

/-- The number of edges arriving at each node, as a vector. -/
def degA (row : IVec S850000 32) : FVec Ideal S50000 .f32 :=
  Host.scatterAdd scatter_S50000_S850000x1_S850000_n_0_0_1 (broadcastInDim S50000 ![] bcast_S_S50000 (constant (F := Ideal) S_ .f32 0x00000000#32)) (broadcastInDim S850000x1 ![0] bcast_S850000_S850000x1_0 row) (broadcastInDim S850000 ![] bcast_S_S850000 (constant (F := Ideal) S_ .f32 0x3F800000#32))

theorem degA_apply (row : IVec S850000 32) (n : Fin 50000) : (degA row (ix1 n) : EReal) = GcnSpec.deg row n := by
  unfold degA GcnSpec.deg
  refine (LibSegSum.scatterVec_apply scatter_S50000_S850000x1_S850000_n_0_0_1_wf _ _ _ n).trans ?_
  rw [LibBcast.bcastScalar_apply]
  refine congrArg₂ (· + ·) Ideal.ofBits_zero_f32 (Finset.sum_congr rfl fun e _ => ?_)
  rw [LibBcast.bcastVecCol_apply, LibBcast.bcastScalar_apply]
  rfl

/-- The node weights deg^(-1/2), as a vector. -/
def disA (row : IVec S850000 32) : FVec Ideal S50000 .f32 :=
  Host.powf (degA row) (broadcastInDim S50000 ![] bcast_S_S50000 (constant (F := Ideal) S_ .f32 0xBF000000#32))

/-- The host's power at an entry is the instance's power of the entries. -/
theorem hostPowf_apply' {F : FTy → Type} [FloatOps F] {s : Shape} {φ : FTy} (x y : FVec F s φ) (i : s.Idx) :
    Host.powf x y i = FloatOps.hostPowf (x i) (y i) := rfl

theorem disA_apply (row : IVec S850000 32) (n : Fin 50000) : (disA row (ix1 n) : EReal) = GcnSpec.dis row n := by
  unfold disA GcnSpec.dis GcnSpec.mhalf
  rw [hostPowf_apply', Ideal.hostPowf_def, LibBcast.bcastScalar_apply, degA_apply, constant_apply]

/-- The weight of each edge: the product of the weights of the nodes its two words name. -/
def wA (row col : IVec S850000 32) : FVec Ideal S850000 .f32 :=
  mulf (Host.gather gather_S50000_S850000x1_S850000_n_0_n_n_0_1_1 (disA row) (broadcastInDim S850000x1 ![0] bcast_S850000_S850000x1_0 (wrapA row))) (Host.gather gather_S50000_S850000x1_S850000_n_0_n_n_0_1_1 (disA row) (broadcastInDim S850000x1 ![0] bcast_S850000_S850000x1_0 (wrapA col)))

theorem gather_disA (row v : IVec S850000 32) (e : Fin 850000) :
    (Host.gather gather_S50000_S850000x1_S850000_n_0_n_n_0_1_1 (disA row) (broadcastInDim S850000x1 ![0] bcast_S850000_S850000x1_0 (wrapA v)) (ix1 e) : EReal)
      = GcnSpec.dis row (GcnSpec.node (v (ix1 e))) := by
  refine (LibGraph.gatherVec_apply (by decide) gather_S50000_S850000x1_S850000_n_0_n_n_0_1_1_wf (disA row) _ e).trans ?_
  rw [LibBcast.bcastVecCol_apply, clamp_wrapA]
  exact disA_apply row _

theorem wA_apply (row col : IVec S850000 32) (e : Fin 850000) :
    (wA row col (ix1 e) : EReal) = GcnSpec.dis row (GcnSpec.node (row (ix1 e))) * GcnSpec.dis row (GcnSpec.node (col (ix1 e))) := by
  unfold wA
  rw [mulf_apply, gather_disA, gather_disA]

/-- The aggregate of a table hw of projected features: every edge adds its weight times the row of hw its source word
    names into the row its target word is. -/
def aggA (row col : IVec S850000 32) (hw : FVec Ideal S50000x128 .f32) : FVec Ideal S50000x128 .f32 :=
  Host.scatterAdd scatter_S50000x128_S850000x1_S850000x128_1_0_0_1 (broadcastInDim S50000x128 ![] bcast_S_S50000x128 (constant (F := Ideal) S_ .f32 0x00000000#32)) (broadcastInDim S850000x1 ![0] bcast_S850000_S850000x1_0 row) (mulf (broadcastInDim S850000x128 ![0, 1] bcast_S850000x1_S850000x128_0_1 (broadcastInDim S850000x1 ![0] bcast_S850000_S850000x1_0 (wA row col))) (Host.gather gather_S50000x128_S850000x1_S850000x128_1_0_n_n_0_1_1128 hw (broadcastInDim S850000x1 ![0] bcast_S850000_S850000x1_0 (wrapA col))))

theorem aggA_apply (row col : IVec S850000 32) (hw : FVec Ideal S50000x128 .f32) (g : Fin 50000 → Fin 128 → EReal)
    (hg : ∀ n q, (hw (ix2 n q) : EReal) = g n q) (n : Fin 50000) (q : Fin 128) :
    (aggA row col hw (ix2 n q) : EReal) = GcnSpec.aggE row col g n q := by
  unfold aggA GcnSpec.aggE
  refine (LibSegSum.scatterRows_apply scatter_S50000x128_S850000x1_S850000x128_1_0_0_1_wf _ _ _ n q).trans ?_
  rw [LibBcast.bcastScalar_apply]
  refine congrArg₂ (· + ·) Ideal.ofBits_zero_f32 (Finset.sum_congr rfl fun e _ => ?_)
  rw [LibBcast.bcastVecCol_apply]
  refine if_congr Iff.rfl ?_ rfl
  rw [mulf_apply, LibBcast.bcastCol_apply, LibBcast.bcastVecCol_apply, wA_apply]
  refine congrArg₂ (· * ·) rfl ?_
  refine (LibGraph.gatherRows_apply (by decide) gather_S50000x128_S850000x1_S850000x128_1_0_n_n_0_1_1128_wf hw _ e q).trans ?_
  rw [LibBcast.bcastVecCol_apply, clamp_wrapA]
  exact hg _ _

/-- One layer: project, aggregate, add the bias, clip at zero. -/
def layerArr (row col : IVec S850000 32) (h : FVec Ideal S50000x128 .f32) (W : FVec Ideal S128x128 .f32) (b : FVec Ideal S128 .f32) :
    FVec Ideal S50000x128 .f32 :=
  maximumf (addf (aggA row col (Host.dotGeneral dot_S50000x128_S128x128_S50000x128_1_0_0_1_n_n none h W)) (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))

/-- The projected features at an entry. -/
theorem proj_apply (h : FVec Ideal S50000x128 .f32) (W : FVec Ideal S128x128 .f32) (g : Fin 50000 → Fin 128 → EReal)
    (hg : ∀ n k, (h (ix2 n k) : EReal) = g n k) (n : Fin 50000) (q : Fin 128) :
    (Host.dotGeneral dot_S50000x128_S128x128_S50000x128_1_0_0_1_n_n none h W (ix2 n q) : EReal) = GcnSpec.proj g W n q := by
  refine (LibHostDot.dotGeneral_ix2 dot_S50000x128_S128x128_S50000x128_1_0_0_1_n_n rfl rfl rfl rfl
    Cert.ReferenceIdeal.Read.lhs_main_v9_0 Cert.ReferenceIdeal.Read.rhs_main_v9_1 none h W n q).trans ?_
  unfold GcnSpec.proj
  exact Finset.sum_congr rfl fun k _ => congrArg (· * W (ix2 k q)) (hg n k)

theorem layerArr_apply (row col : IVec S850000 32) (h : FVec Ideal S50000x128 .f32) (W : FVec Ideal S128x128 .f32)
    (b : FVec Ideal S128 .f32) (g : Fin 50000 → Fin 128 → EReal) (hg : ∀ n k, (h (ix2 n k) : EReal) = g n k)
    (n : Fin 50000) (q : Fin 128) :
    (layerArr row col h W b (ix2 n q) : EReal) = GcnSpec.layerE row col g W b n q := by
  unfold layerArr GcnSpec.layerE
  rw [maximumf_apply, addf_apply, LibBcast.bcastScalar_apply, LibBcast.bcastRow_apply, LibBcast.bcastVecRow_apply]
  refine congrArg₂ max (congrArg₂ (· + ·) ?_ rfl) Ideal.ofBits_zero_f32
  exact aggA_apply row col _ (GcnSpec.proj g W) (proj_apply h W g hg) n q

end Cert.RefSide

end
-- ==== Proof.RefPool.lean ====
/-
  The reference's mean over each graph of a batch as an array-level term, read at one entry.

  From node rows H : [50000, 128] and the nodes' batch words, the sums table is the zero table [1000, 128] with row n
  of H added at row (batch n), the counts vector is the zero vector [1000] with 1.0 added at (batch n), and the result
  is the sums divided by the larger of the count and 1.0.  A node whose batch word, read signed, is outside [0, 1000)
  adds nothing.  Read at (g, q) this is the index-level mean (poolT_eq).
-/
import proofs.«113473_j73512660238714_2_alg».proof.Proof.Gen.ReferenceIdeal
import proofs.«113473_j73512660238714_2_alg».proof.Proof.Spec
import proofs.«113473_j73512660238714_2_alg».proof.Proof.LibSegSum
import proofs.«113473_j73512660238714_2_alg».proof.Proof.LibBcast
import Idealize.ShloMosaic.Lib.IdealHost

noncomputable section

open scoped BigOperators

namespace Cert.RefSide

open Cert.ReferenceIdeal Cert.ReferenceIdeal.Gen Idealize.ShloMosaic Idealize.ShloMosaic.ValueIdx

/-- The per-graph sums of the node rows. -/
def sumsA (batch : IVec S50000 32) (H : FVec Ideal S50000x128 .f32) : FVec Ideal S1000x128 .f32 :=
  Host.scatterAdd scatter_S1000x128_S50000x1_S50000x128_1_0_0_1 (broadcastInDim S1000x128 ![] bcast_S_S1000x128 (constant (F := Ideal) S_ .f32 0x00000000#32)) (broadcastInDim S50000x1 ![0] bcast_S50000_S50000x1_0 batch) H

theorem sumsA_apply (batch : IVec S50000 32) (H : FVec Ideal S50000x128 .f32) (h : Fin 50000 → Fin 128 → EReal)
    (hh : ∀ n q, (H (ix2 n q) : EReal) = h n q) (g : Fin 1000) (q : Fin 128) :
    (sumsA batch H (ix2 g q) : EReal)
      = 0 + ∑ n : Fin 50000, if (batch (ix1 n)).toInt = (g.val : Int) then h n q else 0 := by
  unfold sumsA
  refine (LibSegSum.scatterRows_apply scatter_S1000x128_S50000x1_S50000x128_1_0_0_1_wf _ _ _ g q).trans ?_
  rw [LibBcast.bcastScalar_apply]
  refine congrArg₂ (· + ·) Ideal.ofBits_zero_f32 (Finset.sum_congr rfl fun n _ => ?_)
  rw [LibBcast.bcastVecCol_apply]
  exact if_congr Iff.rfl (hh n q) rfl

/-- The per-graph node counts, each node counted 1.0. -/
def cntsA (batch : IVec S50000 32) : FVec Ideal S1000 .f32 :=
  Host.scatterAdd scatter_S1000_S50000x1_S50000_n_0_0_1 (broadcastInDim S1000 ![] bcast_S_S1000 (constant (F := Ideal) S_ .f32 0x00000000#32)) (broadcastInDim S50000x1 ![0] bcast_S50000_S50000x1_0 batch) (broadcastInDim S50000 ![] bcast_S_S50000 (constant (F := Ideal) S_ .f32 0x3F800000#32))

theorem cntsA_apply (batch : IVec S50000 32) (g : Fin 1000) :
    (cntsA batch (ix1 g) : EReal)
      = 0 + ∑ n : Fin 50000, if (batch (ix1 n)).toInt = (g.val : Int) then GcnSpec.one else 0 := by
  unfold cntsA
  refine (LibSegSum.scatterVec_apply scatter_S1000_S50000x1_S50000_n_0_0_1_wf _ _ _ g).trans ?_
  rw [LibBcast.bcastScalar_apply]
  refine congrArg₂ (· + ·) Ideal.ofBits_zero_f32 (Finset.sum_congr rfl fun n _ => ?_)
  rw [LibBcast.bcastVecCol_apply, LibBcast.bcastScalar_apply]
  rfl

/-- The mean over each graph, as an array. -/
def poolT (batch : IVec S50000 32) (H : FVec Ideal S50000x128 .f32) : FVec Ideal S1000x128 .f32 :=
  Host.divf (sumsA batch H) (broadcastInDim S1000x128 ![0, 1] bcast_S1000x1_S1000x128_0_1 (broadcastInDim S1000x1 ![0] bcast_S1000_S1000x1_0 (maximumf (cntsA batch) (broadcastInDim S1000 ![] bcast_S_S1000 (constant (F := Ideal) S_ .f32 0x3F800000#32)))))

theorem poolT_apply (batch : IVec S50000 32) (H : FVec Ideal S50000x128 .f32) (h : Fin 50000 → Fin 128 → EReal)
    (hh : ∀ n q, (H (ix2 n q) : EReal) = h n q) (g : Fin 1000) (q : Fin 128) :
    (poolT batch H (ix2 g q) : EReal) = GcnSpec.pool batch h g q := by
  unfold poolT
  rw [hostDivf_apply, LibBcast.bcastCol_apply, LibBcast.bcastVecCol_apply, maximumf_apply, LibBcast.bcastScalar_apply, sumsA_apply batch H h hh, cntsA_apply]
  rfl

theorem poolT_eq (batch : IVec S50000 32) (H : FVec Ideal S50000x128 .f32) (h : Fin 50000 → Fin 128 → EReal)
    (hh : ∀ n q, (H (ix2 n q) : EReal) = h n q) : poolT batch H = GcnSpec.poolArr batch h := by
  funext i
  obtain ⟨g, q, rfl⟩ : ∃ (g : Fin 1000) (q : Fin 128), i = ix2 g q := ⟨i 0, i 1, eq_ix2 i⟩
  exact (poolT_apply batch H h hh g q).trans (GcnSpec.poolArr_apply batch h g q).symm

end Cert.RefSide

end
-- ==== Proof.RefSide.lean ====
/-
  The reference program's result as the index-level description of the three per-edge layers and the mean over graphs.

  The program builds its edge list once (the given edge array with one self-loop per node appended; its row 0 are the
  target words, its row 1 the source words), runs three identical layers on it and pools.  The run of the program
  leaves, in its result buffer, the composed array term of its arguments; that term is the pooling term applied to
  three nested layer terms (the two are the same term, so the equation holds by unfolding the names), and each of
  those reads at an entry as the index-level function.  The arguments are left unchanged.
-/
import proofs.«113473_j73512660238714_2_alg».proof.Proof.Gen.ReferenceIdeal
import proofs.«113473_j73512660238714_2_alg».proof.Proof.Gen.ReferenceIdeal.Run
import proofs.«113473_j73512660238714_2_alg».proof.Proof.Spec
import proofs.«113473_j73512660238714_2_alg».proof.Proof.RefLayer
import proofs.«113473_j73512660238714_2_alg».proof.Proof.RefPool

noncomputable section

namespace Cert.RefSide

open Cert.ReferenceIdeal Cert.ReferenceIdeal.Gen Idealize.ShloMosaic Idealize.ShloMosaic.TcCoe Idealize.SL.Sem

/-- the edge list's target words and source words: row 0 / row 1 of the edge array with one self-loop per node appended -/
def rowOf (ei : IVec S2x800000 32) : IVec S850000 32 :=
  shapeCast _ (extractStridedSlice S1x850000 ![0, 0] (concatenate S2x850000 1 [⟨S2x800000, ei⟩, ⟨S2x50000, (concatenate S2x50000 0 [⟨S1x50000, (broadcastInDim S1x50000 ![1] bcast_S50000_S1x50000_1 (iotaInDim S50000 32 0))⟩, ⟨S1x50000, (broadcastInDim S1x50000 ![1] bcast_S50000_S1x50000_1 (iotaInDim S50000 32 0))⟩] concatenates_S1x50000_S1x50000_S2x50000_d0)⟩] concatenates_S2x800000_S2x50000_S2x850000_d1) slices_S2x850000_S1x850000_0_0) shapeCasts_S1x850000_S850000
def colOf (ei : IVec S2x800000 32) : IVec S850000 32 :=
  shapeCast _ (extractStridedSlice S1x850000 ![1, 0] (concatenate S2x850000 1 [⟨S2x800000, ei⟩, ⟨S2x50000, (concatenate S2x50000 0 [⟨S1x50000, (broadcastInDim S1x50000 ![1] bcast_S50000_S1x50000_1 (iotaInDim S50000 32 0))⟩, ⟨S1x50000, (broadcastInDim S1x50000 ![1] bcast_S50000_S1x50000_1 (iotaInDim S50000 32 0))⟩] concatenates_S1x50000_S1x50000_S2x50000_d0)⟩] concatenates_S2x800000_S2x50000_S2x850000_d1) slices_S2x850000_S1x850000_1_0) shapeCasts_S1x850000_S850000

/-- The three layers as an array. -/
def h3Arr (row col : IVec S850000 32) (x : FVec Ideal S50000x128 .f32) (W0 : FVec Ideal S128x128 .f32) (b0 : FVec Ideal S128 .f32)
    (W1 : FVec Ideal S128x128 .f32) (b1 : FVec Ideal S128 .f32) (W2 : FVec Ideal S128x128 .f32) (b2 : FVec Ideal S128 .f32) :
    FVec Ideal S50000x128 .f32 :=
  layerArr row col (layerArr row col (layerArr row col x W0 b0) W1 b1) W2 b2

theorem h3Arr_apply (row col : IVec S850000 32) (x : FVec Ideal S50000x128 .f32) (W0 : FVec Ideal S128x128 .f32) (b0 : FVec Ideal S128 .f32)
    (W1 : FVec Ideal S128x128 .f32) (b1 : FVec Ideal S128 .f32) (W2 : FVec Ideal S128x128 .f32) (b2 : FVec Ideal S128 .f32)
    (n : Fin 50000) (q : Fin 128) :
    (h3Arr row col x W0 b0 W1 b1 W2 b2 (ValueIdx.ix2 n q) : EReal) = GcnSpec.refH3 row col x W0 b0 W1 b1 W2 b2 n q :=
  layerArr_apply row col _ W2 b2 _
    (layerArr_apply row col _ W1 b1 _ (layerArr_apply row col x W0 b0 (GcnSpec.feat x) (fun _ _ => rfl))) n q

/-- The program's result term is the pooling term applied to the three nested layer terms. -/
theorem res_arr (m : (ℓ : Loc nD τ sig) → Buf (Elt Ideal) ℓ) (c : Dev nD) :
    Cert.ReferenceIdeal.Value.res_main_v137 (F := Ideal) m c
      = poolT (m ((c.tc : Thread nD τ).loc main_arg2)) (h3Arr (rowOf (m ((c.tc : Thread nD τ).loc main_arg1))) (colOf (m ((c.tc : Thread nD τ).loc main_arg1))) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := rfl

theorem res_eq (m : (ℓ : Loc nD τ sig) → Buf (Elt Ideal) ℓ) (c : Dev nD) :
    Cert.ReferenceIdeal.Value.res_main_v137 (F := Ideal) m c
      = Cert.GcnSpec.poolArr (m ((c.tc : Thread nD τ).loc main_arg2)) (Cert.GcnSpec.refH3 (rowOf (m ((c.tc : Thread nD τ).loc main_arg1))) (colOf (m ((c.tc : Thread nD τ).loc main_arg1))) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (res_arr m c).trans (poolT_eq _ _ _ (h3Arr_apply _ _ _ _ _ _ _ _ _))

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v137)
        = Cert.GcnSpec.poolArr (m ((c.tc : Thread nD τ).loc main_arg2)) (Cert.GcnSpec.refH3 (rowOf (m ((c.tc : Thread nD τ).loc main_arg1))) (colOf (m ((c.tc : Thread nD τ).loc main_arg1))) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (res_eq m c), (h c).2⟩) (Cert.ReferenceIdeal.Value.run (F := Ideal) m ρ)

end Cert.RefSide

end
-- ==== Proof.LibNodeNorm.lean ====
/-
  One graph-convolution layer, normalised per edge or per node.

  A node n of degree deg(n) (the number of edges arriving at n, plus one for its self-loop) carries the weight
  d(n) = deg(n)^(-1/2).  With h the projected features, the layer's value at node n and channel q, before the bias, is
  written in two ways:

    per edge :  (0 + Σ_e [e arrives at n] · h(s e, q) · (d(s e) · d(t e)))  +  h(n, q) · (1 / deg(n))
    per node :  d(n) · ((0 + Σ_e [e arrives at n] · (h(s e, q) · d(s e)))  +  h(n, q) · d(n))

  where s e, t e are the nodes the edge's source and target words name.  They agree because an edge that arrives at n
  has t e = n, because d(n) · d(n) = 1 / deg(n) for a real degree at least one, and because a non-negative FINITE
  factor distributes over sums of extended reals (an infinite one does not: ⊤ · (⊤ + ⊥)).  Nothing about h is assumed:
  its entries may be infinite.
-/
import Idealize.ShloMosaic.PureOps.Ideal
import Idealize.ShloMosaic.Lib.IdealHost

noncomputable section

open scoped BigOperators

namespace Cert.NodeNorm

open Idealize.ShloMosaic

/-- A non-negative finite factor moves inside a finite sum of extended reals. -/
theorem mul_sum {ι : Type*} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- A count of marked positions, each counted one, is a natural number. -/
theorem count_nat {ι : Type*} (s : Finset ι) (P : ι → Prop) [DecidablePred P] :
    ∃ k : ℕ, (∑ e ∈ s, if P e then (1 : EReal) else 0) = ((k : ℝ) : EReal) := by
  classical
  induction s using Finset.induction_on with
  | empty => exact ⟨0, by simp⟩
  | insert a s ha ih =>
    obtain ⟨k, hk⟩ := ih
    rw [Finset.sum_insert ha, hk]
    by_cases h : P a
    · refine ⟨k + 1, ?_⟩
      rw [if_pos h, ← EReal.coe_one, ← EReal.coe_add]
      congr 1
      push_cast
      ring
    · exact ⟨k, by rw [if_neg h, zero_add]⟩

/-- The degree of a node — the arriving edges counted one each from zero, plus one — is a real number at least one. -/
theorem degree_real {ι : Type*} [Fintype ι] (P : ι → Prop) [DecidablePred P] :
    ∃ r : ℝ, 1 ≤ r ∧ ((0 : EReal) + ∑ e : ι, if P e then (1 : EReal) else 0) + 1 = (r : EReal) := by
  obtain ⟨k, hk⟩ := count_nat (Finset.univ : Finset ι) P
  refine ⟨(k : ℝ) + 1, by have : (0 : ℝ) ≤ (k : ℝ) := Nat.cast_nonneg k; linarith, ?_⟩
  rw [zero_add, hk, ← EReal.coe_one, ← EReal.coe_add]

/-- The reciprocal square root of a positive real degree. -/
theorem rsqrt_of_pos {r : ℝ} (hr : 0 < r) : Ideal.rsqrt (r : EReal) = (((Real.sqrt r)⁻¹ : ℝ) : EReal) := by
  rw [Ideal.rsqrt_coe, if_neg (not_lt.mpr hr.le), if_neg hr.ne']

/-- The node weight d = deg^(-1/2) of a real degree at least one is non-negative, finite, and squares to 1 / deg. -/
theorem weight_facts {deg : EReal} {r : ℝ} (hr : 1 ≤ r) (hdeg : deg = (r : EReal)) :
    0 ≤ Ideal.rsqrt deg ∧ Ideal.rsqrt deg ≠ ⊤ ∧ Ideal.rsqrt deg * Ideal.rsqrt deg = Ideal.div 1 deg := by
  have hpos : 0 < r := by linarith
  subst hdeg
  rw [rsqrt_of_pos hpos]
  refine ⟨?_, EReal.coe_ne_top _, ?_⟩
  · exact_mod_cast inv_nonneg.mpr (Real.sqrt_nonneg r)
  · rw [Ideal.div_coe hpos.ne', one_mul, ← EReal.coe_mul]
    congr 1
    rw [← mul_inv, Real.mul_self_sqrt hpos.le, one_div]

/-- THE LAW.  At one node and channel: `d` is the node's weight, `invdeg` its reciprocal degree, `hn` its own
    projected feature; for each edge `e`, `hs e` is the source's projected feature, `ds e` and `dt e` the weights of the
    nodes its source and target words name, and `arr e` says that it arrives here — in which case its target IS this
    node.  The per-node form equals the per-edge form, bias included. -/
theorem per_node_eq_per_edge {ι : Type*} [Fintype ι] (arr : ι → Prop) [DecidablePred arr] (hs ds dt : ι → EReal)
    (hn d invdeg b : EReal) (h0 : 0 ≤ d) (ht : d ≠ ⊤) (hsq : d * d = invdeg) (harr : ∀ e, arr e → dt e = d) :
    d * (((0 : EReal) + ∑ e : ι, if arr e then hs e * ds e else 0) + hn * d) + b
      = (((0 : EReal) + ∑ e : ι, if arr e then hs e * (ds e * dt e) else 0) + hn * invdeg) + b := by
  refine congrArg (· + b) ?_
  rw [EReal.left_distrib_of_nonneg_of_ne_top h0 ht, zero_add, zero_add, mul_sum _ _ h0 ht]
  refine congrArg₂ (· + ·) (Finset.sum_congr rfl fun e _ => ?_) ?_
  · by_cases h : arr e
    · rw [if_pos h, if_pos h, harr e h, mul_comm d, mul_assoc]
    · rw [if_neg h, if_neg h, mul_zero]
  · rw [← hsq, mul_left_comm]

end Cert.NodeNorm

end
-- ==== Proof.Law.lean ====
/-
  The per-node form of a layer is its per-edge form.

  The node weight d(n) = deg(n)^(-1/2) is a non-negative real number whatever the edge list is: deg(n) is a finite count
  (a natural number as a real), -1/2 is a real, and a real power of a non-negative real is a non-negative real.  Such a
  factor distributes over a finite sum of extended reals with no condition on the summands.  So

      d(n) · (0 + Σ_e [e arrives at n] (g(s e, q) · d(s e)))  =  0 + Σ_e [e arrives at n] (d(t e) · d(s e)) · g(s e, q),

  since an edge that arrives at n has a non-negative target word equal to n, which names the node n itself (t e = n),
  and the product of extended reals is commutative and associative.  Applied three times this identifies the three
  layers computed per node with the three layers computed per edge.
-/
import proofs.«113473_j73512660238714_2_alg».proof.Proof.Spec
import proofs.«113473_j73512660238714_2_alg».proof.Proof.LibNodeNorm

noncomputable section

open scoped BigOperators

namespace Cert.GcnSpec

open Idealize.ShloMosaic Idealize.ShloMosaic.ValueIdx

/-- The word 1.0 is the real 1. -/
theorem one_eq : one = ((1 : ℝ) : EReal) := by
  unfold one
  simp [Ideal.ofBits, Ideal.ieee]
  exact_mod_cast (by norm_num : (8388608 : ℝ) * (2 ^ 23)⁻¹ = 1)

/-- The word -0.5 is the real -1/2. -/
theorem mhalf_eq : mhalf = ((-(1 / 2) : ℝ) : EReal) := by
  unfold mhalf
  simp [Ideal.ofBits, Ideal.ieee]
  exact_mod_cast (by norm_num : (8388608 : ℝ) * (2 ^ 24)⁻¹ = 2⁻¹)

/-- A degree is a natural number. -/
theorem deg_nat (row : IVec SM 32) (n : Fin 50000) : ∃ k : ℕ, deg row n = ((k : ℝ) : EReal) := by
  obtain ⟨k, hk⟩ := NodeNorm.count_nat (Finset.univ : Finset (Fin 850000))
    (fun e => (row (ix1 e)).toInt = (n.val : Int))
  refine ⟨k, ?_⟩
  unfold deg
  rw [zero_add, one_eq, EReal.coe_one]
  exact hk

/-- A node weight is a non-negative real number. -/
theorem dis_nonneg_ne_top (row : IVec SM 32) (n : Fin 50000) : 0 ≤ dis row n ∧ dis row n ≠ ⊤ := by
  obtain ⟨k, hk⟩ := deg_nat row n
  unfold dis
  rw [hk, mhalf_eq, Ideal.pow_coe_coe]
  exact ⟨by exact_mod_cast Real.rpow_nonneg (Nat.cast_nonneg k) _, EReal.coe_ne_top _⟩

/-- An edge that arrives at n has a target word naming n. -/
theorem node_of_arrives (w : BitVec 32) (n : Fin 50000) (h : w.toInt = (n.val : Int)) : node w = n := by
  unfold node
  rw [LibGraph.wrapIdx_of_nonneg w _ 0#32 rfl (by omega)]
  exact LibGraph.clampIdx_of_landed _ w n h

/-- The weighted plain aggregate of weighted rows is the aggregate normalised per edge. -/
theorem dis_mul_aggN (row col : IVec SM 32) (g : Fin 50000 → Fin 128 → EReal) (n : Fin 50000) (q : Fin 128) :
    dis row n * aggN row col (scaled row g) n q = aggE row col g n q := by
  obtain ⟨h0, ht⟩ := dis_nonneg_ne_top row n
  unfold aggN aggE scaled
  rw [zero_add, zero_add, NodeNorm.mul_sum _ _ h0 ht]
  refine Finset.sum_congr rfl fun e _ => ?_
  by_cases h : (row (ix1 e)).toInt = (n.val : Int)
  · rw [if_pos h, if_pos h, node_of_arrives _ n h, mul_comm (g _ q), ← mul_assoc]
  · rw [if_neg h, if_neg h, mul_zero]

/-- One layer: the per-node finish of weighted projected rows is the per-edge layer. -/
theorem actN_scaled (row col : IVec SM 32) (h : Fin 50000 → Fin 128 → EReal) (W : FVec Ideal SDD .f32)
    (b : FVec Ideal SD .f32) :
    actN row col (scaled row (proj h W)) b = layerE row col h W b := by
  funext n q
  unfold actN layerE
  rw [dis_mul_aggN]

/-- The three layers computed per node are the three layers computed per edge. -/
theorem nodeH3_eq (row col : IVec SM 32) (x : FVec Ideal SND .f32) (W0 : FVec Ideal SDD .f32) (b0 : FVec Ideal SD .f32)
    (W1 : FVec Ideal SDD .f32) (b1 : FVec Ideal SD .f32) (W2 : FVec Ideal SDD .f32) (b2 : FVec Ideal SD .f32) :
    nodeH3 row col x W0 b0 W1 b1 W2 b2 = refH3 row col x W0 b0 W1 b1 W2 b2 := by
  unfold nodeH3 refH3
  rw [actN_scaled, actN_scaled, actN_scaled]

end Cert.GcnSpec

end
-- ==== Proof.lean ====
/-
  The certificate of a three-layer graph convolution with mean pooling: four pipelined kernels for the dense parts
  (project and weight; weight, bias, clip, project and weight, twice; weight, bias and clip) with the gathers and
  scatter-adds between them on the host, against a reference that normalises every edge's message by the product of
  its endpoints' weights.

  The three frames are the generated ones (the reference's is its generated run with the result dropped).  The ideal
  pass rewrote nothing, so the kernel's idealization is the program's own text.  At the ideal values the kernel program
  ends at the pooled mean of the three layers computed with the normalisation applied per node, and the reference at
  the pooled mean of the three layers computed per edge; the two are one function of the arguments because a node weight
  deg^(-1/2) is a non-negative real number, which distributes over the finite sum of the arriving edges' messages, and an
  arriving edge's target is the node it arrives at.  The edge words (the edge array with one self-loop per node appended)
  are the same term in both programs.
-/
import proofs.«113473_j73512660238714_2_alg».proof.Defs
import proofs.«113473_j73512660238714_2_alg».proof.Proof.Gen.Kernel
import proofs.«113473_j73512660238714_2_alg».proof.Proof.Gen.Kernel.Skeleton
import proofs.«113473_j73512660238714_2_alg».proof.Proof.Gen.Kernel.Launch
import proofs.«113473_j73512660238714_2_alg».proof.Proof.Gen.Kernel.Points
import proofs.«113473_j73512660238714_2_alg».proof.Proof.Gen.Kernel.Frame
import proofs.«113473_j73512660238714_2_alg».proof.Proof.Gen.KernelIdeal
import proofs.«113473_j73512660238714_2_alg».proof.Proof.Gen.KernelIdeal.Skeleton
import proofs.«113473_j73512660238714_2_alg».proof.Proof.Gen.KernelIdeal.Launch
import proofs.«113473_j73512660238714_2_alg».proof.Proof.Gen.KernelIdeal.Points
import proofs.«113473_j73512660238714_2_alg».proof.Proof.Gen.KernelIdeal.Frame
import proofs.«113473_j73512660238714_2_alg».proof.Proof.Gen.ReferenceIdeal
import proofs.«113473_j73512660238714_2_alg».proof.Proof.Gen.ReferenceIdeal.Run
import proofs.«113473_j73512660238714_2_alg».proof.Proof.Gen.Pre_finite_inputs
import proofs.«113473_j73512660238714_2_alg».proof.Proof.KValue
import proofs.«113473_j73512660238714_2_alg».proof.Proof.RefSide
import proofs.«113473_j73512660238714_2_alg».proof.Proof.Law
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The edge words are one term of the edge array in both programs. -/
theorem row_eq (ei : IVec Cert.KernelIdeal.S2x800000 32) : Cert.RefSide.rowOf ei = Cert.KernelIdeal.KStages.rowOf ei := rfl
theorem col_eq (ei : IVec Cert.KernelIdeal.S2x800000 32) : Cert.RefSide.colOf ei = Cert.KernelIdeal.KStages.colOf ei := rfl

theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩) (Cert.RefSide.run m' ρ')
  obtain ⟨e0, e1, e2, e3, e4, e5, e6, e7, e8⟩ := hagree c
  rw [e0, e1, e2, e3, e4, e5, e6, e7, e8, row_eq, col_eq, ← Cert.GcnSpec.nodeH3_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
